-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x512x14x14 : Shape := ⟨4, ![128, 512, 14, 14]⟩
abbrev S512x64 : Shape := ⟨2, ![512, 64]⟩
abbrev S1x64 : Shape := ⟨2, ![1, 64]⟩
abbrev S64x512 : Shape := ⟨2, ![64, 512]⟩
abbrev S1x512 : Shape := ⟨2, ![1, 512]⟩
abbrev S_ : Shape := ⟨0, ![]⟩

class Facts : Prop where
  bcast_S_S128x512x14x14 : S_.BroadcastsInDim S128x512x14x14 (![] : Fin 0 → Fin S128x512x14x14.rank)
  reducesTo_S128x512x14x14_S_d0_1_2_3 : S128x512x14x14.ReducesTo [0, 1, 2, 3] S_
  h_S_ : 0 < S_.numel
  bcast_S_S512x64 : S_.BroadcastsInDim S512x64 (![] : Fin 0 → Fin S512x64.rank)
  reducesTo_S512x64_S_d0_1 : S512x64.ReducesTo [0, 1] S_
  bcast_S_S1x64 : S_.BroadcastsInDim S1x64 (![] : Fin 0 → Fin S1x64.rank)
  reducesTo_S1x64_S_d0_1 : S1x64.ReducesTo [0, 1] S_
  bcast_S_S64x512 : S_.BroadcastsInDim S64x512 (![] : Fin 0 → Fin S64x512.rank)
  reducesTo_S64x512_S_d0_1 : S64x512.ReducesTo [0, 1] S_
  bcast_S_S1x512 : S_.BroadcastsInDim S1x512 (![] : Fin 0 → Fin S1x512.rank)
  reducesTo_S1x512_S_d0_1 : S1x512.ReducesTo [0, 1] S_

variable [Facts]

def fn_part1 {F : FTy → Type} [FloatOps F] (main_arg4 : FVec F S1x512 .f32) (main_v13 : IVec S_ 1) (main_v16 : IVec S64x512 1) : IVec S_ 1 :=
  let main_c_5 : IVec S_ 1 := constantI S_ 1 1#1
  let main_v17 : IVec S_ 1 := (fun x v => Host.reduce IntOp.andi x v reducesTo_S64x512_S_d0_1 h_S_) main_v16 main_c_5
  let main_v18 : IVec S_ 1 := andi main_v13 main_v17
  let main_v19 : FVec F S1x512 .f32 := Host.absf main_arg4
  let main_cst_6 : FVec F S_ .f32 := constant S_ .f32 0x7F800000#32
  let main_v20 : FVec F S1x512 .f32 := broadcastInDim S1x512 ![] bcast_S_S1x512 main_cst_6
  let main_v21 : IVec S1x512 1 := cmpf .olt main_v19 main_v20
  let main_c_7 : IVec S_ 1 := constantI S_ 1 1#1
  let main_v22 : IVec S_ 1 := (fun x v => Host.reduce IntOp.andi x v reducesTo_S1x512_S_d0_1 h_S_) main_v21 main_c_7
  let main_v23 : IVec S_ 1 := andi main_v18 main_v22
  main_v23

def fn {F : FTy → Type} [FloatOps F] (main_arg0 : FVec F S128x512x14x14 .f32) (main_arg1 : FVec F S512x64 .f32) (main_arg2 : FVec F S1x64 .f32) (main_arg3 : FVec F S64x512 .f32) (main_arg4 : FVec F S1x512 .f32) : IVec S_ 1 :=
  let main_v0 : FVec F S128x512x14x14 .f32 := Host.absf main_arg0
  let main_cst : FVec F S_ .f32 := constant S_ .f32 0x7F800000#32
  let main_v1 : FVec F S128x512x14x14 .f32 := broadcastInDim S128x512x14x14 ![] bcast_S_S128x512x14x14 main_cst
  let main_v2 : IVec S128x512x14x14 1 := cmpf .olt main_v0 main_v1
  let main_c : IVec S_ 1 := constantI S_ 1 1#1
  let main_v3 : IVec S_ 1 := (fun x v => Host.reduce IntOp.andi x v reducesTo_S128x512x14x14_S_d0_1_2_3 h_S_) main_v2 main_c
  let main_v4 : FVec F S512x64 .f32 := Host.absf main_arg1
  let main_cst_0 : FVec F S_ .f32 := constant S_ .f32 0x7F800000#32
  let main_v5 : FVec F S512x64 .f32 := broadcastInDim S512x64 ![] bcast_S_S512x64 main_cst_0
  let main_v6 : IVec S512x64 1 := cmpf .olt main_v4 main_v5
  let main_c_1 : IVec S_ 1 := constantI S_ 1 1#1
  let main_v7 : IVec S_ 1 := (fun x v => Host.reduce IntOp.andi x v reducesTo_S512x64_S_d0_1 h_S_) main_v6 main_c_1
  let main_v8 : IVec S_ 1 := andi main_v3 main_v7
  let main_v9 : FVec F S1x64 .f32 := Host.absf main_arg2
  let main_cst_2 : FVec F S_ .f32 := constant S_ .f32 0x7F800000#32
  let main_v10 : FVec F S1x64 .f32 := broadcastInDim S1x64 ![] bcast_S_S1x64 main_cst_2
  let main_v11 : IVec S1x64 1 := cmpf .olt main_v9 main_v10
  let main_c_3 : IVec S_ 1 := constantI S_ 1 1#1
  let main_v12 : IVec S_ 1 := (fun x v => Host.reduce IntOp.andi x v reducesTo_S1x64_S_d0_1 h_S_) main_v11 main_c_3
  let main_v13 : IVec S_ 1 := andi main_v8 main_v12
  let main_v14 : FVec F S64x512 .f32 := Host.absf main_arg3
  let main_cst_4 : FVec F S_ .f32 := constant S_ .f32 0x7F800000#32
  let main_v15 : FVec F S64x512 .f32 := broadcastInDim S64x512 ![] bcast_S_S64x512 main_cst_4
  let main_v16 : IVec S64x512 1 := cmpf .olt main_v14 main_v15
  fn_part1 (F := F) main_arg4 main_v13 main_v16
-- ==== Kernel.lean ====
abbrev S128x512x14x14 : Shape := ⟨4, ![128, 512, 14, 14]⟩
abbrev S512x64 : Shape := ⟨2, ![512, 64]⟩
abbrev S1x64 : Shape := ⟨2, ![1, 64]⟩
abbrev S64x512 : Shape := ⟨2, ![64, 512]⟩
abbrev S1x512 : Shape := ⟨2, ![1, 512]⟩
abbrev S14x14x128x512 : Shape := ⟨4, ![14, 14, 128, 512]⟩
abbrev S196x128x512 : Shape := ⟨3, ![196, 128, 512]⟩
abbrev S196x32x512 : Shape := ⟨3, ![196, 32, 512]⟩
abbrev S32x512 : Shape := ⟨2, ![32, 512]⟩
abbrev S32x64 : Shape := ⟨2, ![32, 64]⟩
abbrev S1x32x512 : Shape := ⟨3, ![1, 32, 512]⟩

abbrev nBuf : Space → Nat
  | .hbm => 10
  | .vmem => 8
  | .smem => 0
  | _ => 0

abbrev bufTy : (tb : Table) → Fin (tcTables nBuf tb) → BufTy
  | .hbm, ⟨0, _⟩ => ⟨S128x512x14x14, .f32⟩
  | .hbm, ⟨1, _⟩ => ⟨S512x64, .f32⟩
  | .hbm, ⟨2, _⟩ => ⟨S1x64, .f32⟩
  | .hbm, ⟨3, _⟩ => ⟨S64x512, .f32⟩
  | .hbm, ⟨4, _⟩ => ⟨S1x512, .f32⟩
  | .hbm, ⟨5, _⟩ => ⟨S14x14x128x512, .f32⟩
  | .hbm, ⟨6, _⟩ => ⟨S196x128x512, .f32⟩
  | .hbm, ⟨7, _⟩ => ⟨S196x128x512, .f32⟩
  | .hbm, ⟨8, _⟩ => ⟨S14x14x128x512, .f32⟩
  | .hbm, ⟨9, _⟩ => ⟨S128x512x14x14, .f32⟩
  | .local _ .vmem, ⟨0, _⟩ => ⟨S196x32x512, .f32⟩
  | .local _ .vmem, ⟨1, _⟩ => ⟨S196x32x512, .f32⟩
  | .local _ .vmem, ⟨2, _⟩ => ⟨S512x64, .f32⟩
  | .local _ .vmem, ⟨3, _⟩ => ⟨S1x64, .f32⟩
  | .local _ .vmem, ⟨4, _⟩ => ⟨S64x512, .f32⟩
  | .local _ .vmem, ⟨5, _⟩ => ⟨S1x512, .f32⟩
  | .local _ .vmem, ⟨6, _⟩ => ⟨S196x32x512, .f32⟩
  | .local _ .vmem, ⟨7, _⟩ => ⟨S196x32x512, .f32⟩
  | _, _ => ⟨S128x512x14x14, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_v0 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S196x32x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S196x32x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  transposes_S128x512x14x14_S14x14x128x512_2_3_0_1 : S128x512x14x14.Transposes [2, 3, 0, 1] S14x14x128x512
  shapeCasts_S14x14x128x512_S196x128x512 : S14x14x128x512.ShapeCasts S196x128x512
  shapeCasts_S196x128x512_S14x14x128x512 : S196x128x512.ShapeCasts S14x14x128x512
  transposes_S14x14x128x512_S128x512x14x14_2_3_0_1 : S14x14x128x512.Transposes [2, 3, 0, 1] S128x512x14x14
  inb_S196x32x512_S196x32x512_0_0_0 : ∀ a, (![0, 0, 0] : Fin 3 → Nat) a + S196x32x512.size a ≤ S196x32x512.size a
  h_S196x32x512 : 0 < S196x32x512.numel
  shapeCasts_S196x32x512_S196x32x512 : S196x32x512.ShapeCasts S196x32x512
  reduces_S196x32x512_S32x512 : S196x32x512.Reduces [0] S32x512
  inb_S512x64_S512x64_0_0 : ∀ a, (![0, 0] : Fin 2 → Nat) a + S512x64.size a ≤ S512x64.size a
  h_S512x64 : 0 < S512x64.numel
  inb_S1x64_S1x64_0_0 : ∀ a, (![0, 0] : Fin 2 → Nat) a + S1x64.size a ≤ S1x64.size a
  h_S1x64 : 0 < S1x64.numel
  broadcasts_S1x64_S32x64 : S1x64.Broadcasts S32x64
  inb_S64x512_S64x512_0_0 : ∀ a, (![0, 0] : Fin 2 → Nat) a + S64x512.size a ≤ S64x512.size a
  h_S64x512 : 0 < S64x512.numel
  inb_S1x512_S1x512_0_0 : ∀ a, (![0, 0] : Fin 2 → Nat) a + S1x512.size a ≤ S1x512.size a
  h_S1x512 : 0 < S1x512.numel
  broadcasts_S1x512_S32x512 : S1x512.Broadcasts S32x512
  shapeCasts_S32x512_S1x32x512 : S32x512.ShapeCasts S1x32x512
  broadcasts_S1x32x512_S196x32x512 : S1x32x512.Broadcasts S196x32x512
  dot_S32x512_S512x64_S32x64_1_0_0_1_n_n_wf : DotDims.WF S32x512 S512x64 S32x64 [1] [0] [0] [1] [] []
  dot_S32x64_S64x512_S32x512_1_0_0_1_n_n_wf : DotDims.WF S32x64 S64x512 S32x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S196x32x512.size a ≤ S196x128x512.size a
  hwx0_0 : ∀ i : grid0.Coords, EltTy.bits .f32 = 32 ∨ (Rect.block (s := S196x128x512) S196x32x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x64.size a ≤ S512x64.size a
  hwx0_1 : ∀ i : grid0.Coords, EltTy.bits .f32 = 32 ∨ (Rect.block (s := S512x64) S512x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x512.size a ≤ S64x512.size a
  hwx0_3 : ∀ i : grid0.Coords, EltTy.bits .f32 = 32 ∨ (Rect.block (s := S64x512) S64x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x512.size a
  hwx0_4 : ∀ i : grid0.Coords, EltTy.bits .f32 = 32 ∨ (Rect.block (s := S1x512) S1x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S196x32x512.size a ≤ S196x128x512.size a
  hwx0_5 : ∀ i : grid0.Coords, EltTy.bits .f32 = 32 ∨ (Rect.block (s := S196x128x512) S196x32x512.size (cc0_transform_5 i) (hinb0_5 i)).WholeWords (EltTy.packing .f32)

variable [Facts₀]

def dot_S32x512_S512x64_S32x64_1_0_0_1_n_n : DotDims S32x512 S512x64 S32x64 where
  lhsContracting := [1]
  rhsContracting := [0]
  lhsNonContracting := [0]
  rhsNonContracting := [1]
  lhsBatch := []
  rhsBatch := []
  wf := dot_S32x512_S512x64_S32x64_1_0_0_1_n_n_wf
def dot_S32x64_S64x512_S32x512_1_0_0_1_n_n : DotDims S32x64 S64x512 S32x512 where
  lhsContracting := [1]
  rhsContracting := [0]
  lhsNonContracting := [0]
  rhsNonContracting := [1]
  lhsBatch := []
  rhsBatch := []
  wf := dot_S32x64_S64x512_S32x512_1_0_0_1_n_n_wf

abbrev win0_0 : Pipeline.Window sig grid0 :=
  Pipeline.Window.ofSpec (Memref.whole main_call0_v1) S196x32x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S64x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_call0_v2) S196x32x512.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S128x512x14x14 : Shape := ⟨4, ![128, 512, 14, 14]⟩
abbrev S512x64 : Shape := ⟨2, ![512, 64]⟩
abbrev S1x64 : Shape := ⟨2, ![1, 64]⟩
abbrev S64x512 : Shape := ⟨2, ![64, 512]⟩
abbrev S1x512 : Shape := ⟨2, ![1, 512]⟩
abbrev S128x14x14x512 : Shape := ⟨4, ![128, 14, 14, 512]⟩
abbrev S128x196x512 : Shape := ⟨3, ![128, 196, 512]⟩
abbrev S5x196x512 : Shape := ⟨3, ![5, 196, 512]⟩
abbrev S5x512 : Shape := ⟨2, ![5, 512]⟩
abbrev S5x64 : Shape := ⟨2, ![5, 64]⟩
abbrev S5x1x512 : Shape := ⟨3, ![5, 1, 512]⟩

abbrev nBuf : Space → Nat
  | .hbm => 10
  | .vmem => 8
  | .smem => 0
  | _ => 0

abbrev bufTy : (tb : Table) → Fin (tcTables nBuf tb) → BufTy
  | .hbm, ⟨0, _⟩ => ⟨S128x512x14x14, .f32⟩
  | .hbm, ⟨1, _⟩ => ⟨S512x64, .f32⟩
  | .hbm, ⟨2, _⟩ => ⟨S1x64, .f32⟩
  | .hbm, ⟨3, _⟩ => ⟨S64x512, .f32⟩
  | .hbm, ⟨4, _⟩ => ⟨S1x512, .f32⟩
  | .hbm, ⟨5, _⟩ => ⟨S128x14x14x512, .f32⟩
  | .hbm, ⟨6, _⟩ => ⟨S128x196x512, .f32⟩
  | .hbm, ⟨7, _⟩ => ⟨S128x196x512, .f32⟩
  | .hbm, ⟨8, _⟩ => ⟨S128x14x14x512, .f32⟩
  | .hbm, ⟨9, _⟩ => ⟨S128x512x14x14, .f32⟩
  | .local _ .vmem, ⟨0, _⟩ => ⟨S5x196x512, .f32⟩
  | .local _ .vmem, ⟨1, _⟩ => ⟨S5x196x512, .f32⟩
  | .local _ .vmem, ⟨2, _⟩ => ⟨S512x64, .f32⟩
  | .local _ .vmem, ⟨3, _⟩ => ⟨S1x64, .f32⟩
  | .local _ .vmem, ⟨4, _⟩ => ⟨S64x512, .f32⟩
  | .local _ .vmem, ⟨5, _⟩ => ⟨S1x512, .f32⟩
  | .local _ .vmem, ⟨6, _⟩ => ⟨S5x196x512, .f32⟩
  | .local _ .vmem, ⟨7, _⟩ => ⟨S5x196x512, .f32⟩
  | _, _ => ⟨S128x512x14x14, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_v0 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![26], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S5x196x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5x196x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  transposes_S128x512x14x14_S128x14x14x512_0_2_3_1 : S128x512x14x14.Transposes [0, 2, 3, 1] S128x14x14x512
  shapeCasts_S128x14x14x512_S128x196x512 : S128x14x14x512.ShapeCasts S128x196x512
  shapeCasts_S128x196x512_S128x14x14x512 : S128x196x512.ShapeCasts S128x14x14x512
  transposes_S128x14x14x512_S128x512x14x14_0_3_1_2 : S128x14x14x512.Transposes [0, 3, 1, 2] S128x512x14x14
  inb_S5x196x512_S5x196x512_0_0_0 : ∀ a, (![0, 0, 0] : Fin 3 → Nat) a + S5x196x512.size a ≤ S5x196x512.size a
  h_S5x196x512 : 0 < S5x196x512.numel
  shapeCasts_S5x196x512_S5x196x512 : S5x196x512.ShapeCasts S5x196x512
  reduces_S5x196x512_S5x512 : S5x196x512.Reduces [1] S5x512
  inb_S512x64_S512x64_0_0 : ∀ a, (![0, 0] : Fin 2 → Nat) a + S512x64.size a ≤ S512x64.size a
  h_S512x64 : 0 < S512x64.numel
  inb_S1x64_S1x64_0_0 : ∀ a, (![0, 0] : Fin 2 → Nat) a + S1x64.size a ≤ S1x64.size a
  h_S1x64 : 0 < S1x64.numel
  broadcasts_S1x64_S5x64 : S1x64.Broadcasts S5x64
  inb_S64x512_S64x512_0_0 : ∀ a, (![0, 0] : Fin 2 → Nat) a + S64x512.size a ≤ S64x512.size a
  h_S64x512 : 0 < S64x512.numel
  inb_S1x512_S1x512_0_0 : ∀ a, (![0, 0] : Fin 2 → Nat) a + S1x512.size a ≤ S1x512.size a
  h_S1x512 : 0 < S1x512.numel
  broadcasts_S1x512_S5x512 : S1x512.Broadcasts S5x512
  shapeCasts_S5x512_S5x1x512 : S5x512.ShapeCasts S5x1x512
  broadcasts_S5x1x512_S5x196x512 : S5x1x512.Broadcasts S5x196x512
  dot_S5x512_S512x64_S5x64_1_0_0_1_n_n_wf : DotDims.WF S5x512 S512x64 S5x64 [1] [0] [0] [1] [] []
  dot_S5x64_S64x512_S5x512_1_0_0_1_n_n_wf : DotDims.WF S5x64 S64x512 S5x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S5x196x512.size a < S128x196x512.size a
  hwx0_0 : ∀ i : grid0.Coords, EltTy.bits .f32 = 32 ∨ (Rect.unit (s := S128x196x512) (fun a => cc0_transform_0 i a * S5x196x512.size a) (fun a => (Pipeline.Clip.of (cc0_transform_0 i a) (S5x196x512.size a) (S128x196x512.size a)).extent (S5x196x512.size a)) fun a => Pipeline.Clip.inb (Pipeline.Clip.ok_of (hstart0_0 i a))).WholeWords (EltTy.packing .f32)
  hwxs0_0 : ∀ i : grid0.Coords, EltTy.bits .f32 = 32 ∨ (Rect.unit (s := S5x196x512) (fun _ => 0) (fun a => (Pipeline.Clip.of (cc0_transform_0 i a) (S5x196x512.size a) (S128x196x512.size a)).extent (S5x196x512.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x64.size a ≤ S512x64.size a
  hwx0_1 : ∀ i : grid0.Coords, EltTy.bits .f32 = 32 ∨ (Rect.block (s := S512x64) S512x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x512.size a ≤ S64x512.size a
  hwx0_3 : ∀ i : grid0.Coords, EltTy.bits .f32 = 32 ∨ (Rect.block (s := S64x512) S64x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x512.size a
  hwx0_4 : ∀ i : grid0.Coords, EltTy.bits .f32 = 32 ∨ (Rect.block (s := S1x512) S1x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hstart0_5 : ∀ (i : grid0.Coords) a, cc0_transform_5 i a * S5x196x512.size a < S128x196x512.size a
  hwx0_5 : ∀ i : grid0.Coords, EltTy.bits .f32 = 32 ∨ (Rect.unit (s := S128x196x512) (fun a => cc0_transform_5 i a * S5x196x512.size a) (fun a => (Pipeline.Clip.of (cc0_transform_5 i a) (S5x196x512.size a) (S128x196x512.size a)).extent (S5x196x512.size a)) fun a => Pipeline.Clip.inb (Pipeline.Clip.ok_of (hstart0_5 i a))).WholeWords (EltTy.packing .f32)
  hwxs0_5 : ∀ i : grid0.Coords, EltTy.bits .f32 = 32 ∨ (Rect.unit (s := S5x196x512) (fun _ => 0) (fun a => (Pipeline.Clip.of (cc0_transform_5 i a) (S5x196x512.size a) (S128x196x512.size a)).extent (S5x196x512.size a)) fun a => (Nat.zero_add _).trans_le (Pipeline.Clip.extent_le (Pipeline.Clip.ok_of (hstart0_5 i a)))).WholeWords (EltTy.packing .f32)

variable [Facts₀]

def dot_S5x512_S512x64_S5x64_1_0_0_1_n_n : DotDims S5x512 S512x64 S5x64 where
  lhsContracting := [1]
  rhsContracting := [0]
  lhsNonContracting := [0]
  rhsNonContracting := [1]
  lhsBatch := []
  rhsBatch := []
  wf := dot_S5x512_S512x64_S5x64_1_0_0_1_n_n_wf
def dot_S5x64_S64x512_S5x512_1_0_0_1_n_n : DotDims S5x64 S64x512 S5x512 where
  lhsContracting := [1]
  rhsContracting := [0]
  lhsNonContracting := [0]
  rhsNonContracting := [1]
  lhsBatch := []
  rhsBatch := []
  wf := dot_S5x64_S64x512_S5x512_1_0_0_1_n_n_wf

abbrev win0_0 : Pipeline.Window sig grid0 :=
  Pipeline.Window.ofSpecClip (Memref.whole main_call0_v1) S5x196x512.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpec (Memref.whole main_arg1) S512x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S64x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpecClip (Memref.whole main_call0_v2) S5x196x512.size cc0_transform_5 reads0_5 true false 2 stage0_5 sem0_5
    hrank0 hreads0_5 hstart0_5 nbuf0_5 (Memref.isWhole_whole _) hwx0_5 hwxs0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== Proof.Spec.lean ====
/-
  The squeeze-and-excite gate as one function of the argument arrays, on the extended reals.

  For a batch row `b`, write `X s k` for the input at spatial position `s` (of 196 = 14 · 14) and channel `k` (of 512).
  * `pooled X k`  — the sum of column `k` over the 196 positions, times the literal the programs use for 1/196;
  * `hidden X w1 b1 j` — the first dense layer, `max (∑ k, pooled X k · w1[k, j] + b1[j]) 0`;
  * `gate X … c` — the second dense layer through the logistic function;
  * `resAt x … b c h w = gate (row b of x) c · x[b, c, h, w]` — the result array at one index, and `result` the
    whole array. Both programs compute `result`: they differ only in how they lay the input out for the kernel
    (position-major against batch-major) and in how they cut it into blocks, never in the arithmetic.
-/
import Idealize.ShloMosaic.PureOps.Ideal
import Idealize.ShloMosaic.Lib.ValueIdx

noncomputable section

namespace Cert.SE

open Idealize.ShloMosaic Idealize.ShloMosaic.ValueIdx

/-- The row and the column of a position `s < 196` of the 14 × 14 grid, row-major: `s = 14 · row + col`. -/
def rowOf (s : Fin 196) : Fin 14 := ⟨s.val / 14, by have := s.isLt; omega⟩
def colOf (s : Fin 196) : Fin 14 := ⟨s.val % 14, by omega⟩
/-- The position of row `h`, column `w`. -/
def posOf (h w : Fin 14) : Fin 196 := ⟨h.val * 14 + w.val, by have := h.isLt; have := w.isLt; omega⟩

theorem rowOf_posOf (h w : Fin 14) : rowOf (posOf h w) = h := Fin.ext (by
  show (h.val * 14 + w.val) / 14 = h.val
  have := w.isLt; omega)
theorem colOf_posOf (h w : Fin 14) : colOf (posOf h w) = w := Fin.ext (by
  show (h.val * 14 + w.val) % 14 = w.val
  have := w.isLt; omega)

/-- Column `k` of the pooled mean of one batch row. -/
def pooled (X : Fin 196 → Fin 512 → EReal) (k : Fin 512) : EReal :=
  (∑ s : Fin 196, X s k) * Scalar.ofBits (F := Ideal) .f32 0x3BA72F05#32

/-- Unit `j` of the first dense layer, after the rectifier. -/
def hidden (X : Fin 196 → Fin 512 → EReal) (w1 : FVec Ideal ⟨2, ![512, 64]⟩ .f32) (b1 : FVec Ideal ⟨2, ![1, 64]⟩ .f32)
    (j : Fin 64) : EReal :=
  max ((∑ k : Fin 512, pooled X k * w1 (ix2 k j)) + b1 (ix2 (0 : Fin 1) j)) (Scalar.ofBits (F := Ideal) .f32 0x00000000#32)

/-- Channel `c` of the gate: the second dense layer through the logistic function. -/
def gate (X : Fin 196 → Fin 512 → EReal) (w1 : FVec Ideal ⟨2, ![512, 64]⟩ .f32) (b1 : FVec Ideal ⟨2, ![1, 64]⟩ .f32)
    (w2 : FVec Ideal ⟨2, ![64, 512]⟩ .f32) (b2 : FVec Ideal ⟨2, ![1, 512]⟩ .f32) (c : Fin 512) : EReal :=
  FloatOps.logistic (F := Ideal) (φ := .f32) ((∑ j : Fin 64, hidden X w1 b1 j * w2 (ix2 j c)) + b2 (ix2 (0 : Fin 1) c))

/-- The gate depends on the slab only through its entries. -/
theorem gate_congr {X X' : Fin 196 → Fin 512 → EReal} (h : ∀ s k, X s k = X' s k) (w1 : FVec Ideal ⟨2, ![512, 64]⟩ .f32)
    (b1 : FVec Ideal ⟨2, ![1, 64]⟩ .f32) (w2 : FVec Ideal ⟨2, ![64, 512]⟩ .f32) (b2 : FVec Ideal ⟨2, ![1, 512]⟩ .f32) (c : Fin 512) :
    gate X w1 b1 w2 b2 c = gate X' w1 b1 w2 b2 c := by
  have e : X = X' := funext fun s => funext fun k => h s k
  rw [e]

/-- The result at batch row `b`, channel `c`, row `h`, column `w`: the gate of batch row `b` at channel `c`, times the input there. -/
def resAt (x : FVec Ideal ⟨4, ![128, 512, 14, 14]⟩ .f32) (w1 : FVec Ideal ⟨2, ![512, 64]⟩ .f32) (b1 : FVec Ideal ⟨2, ![1, 64]⟩ .f32)
    (w2 : FVec Ideal ⟨2, ![64, 512]⟩ .f32) (b2 : FVec Ideal ⟨2, ![1, 512]⟩ .f32) (b : Fin 128) (c : Fin 512) (h w : Fin 14) : EReal :=
  gate (fun s k => x (ix4 b k (rowOf s) (colOf s))) w1 b1 w2 b2 c * x (ix4 b c h w)

/-- The whole result array. -/
def result (x : FVec Ideal ⟨4, ![128, 512, 14, 14]⟩ .f32) (w1 : FVec Ideal ⟨2, ![512, 64]⟩ .f32) (b1 : FVec Ideal ⟨2, ![1, 64]⟩ .f32)
    (w2 : FVec Ideal ⟨2, ![64, 512]⟩ .f32) (b2 : FVec Ideal ⟨2, ![1, 512]⟩ .f32) : FVec Ideal ⟨4, ![128, 512, 14, 14]⟩ .f32 :=
  fun i => resAt x w1 b1 w2 b2 (i 0) (i 1) (i 2) (i 3)

theorem result_apply (x : FVec Ideal ⟨4, ![128, 512, 14, 14]⟩ .f32) (w1 : FVec Ideal ⟨2, ![512, 64]⟩ .f32) (b1 : FVec Ideal ⟨2, ![1, 64]⟩ .f32)
    (w2 : FVec Ideal ⟨2, ![64, 512]⟩ .f32) (b2 : FVec Ideal ⟨2, ![1, 512]⟩ .f32) (b : Fin 128) (c : Fin 512) (h w : Fin 14) :
    result x w1 b1 w2 b2 (ix4 b c h w) = resAt x w1 b1 w2 b2 b c h w := rfl

end Cert.SE

end
-- ==== Proof.KernelPay.lean ====
/-
  The value the kernel under proof stores, read at one index of its block.

  The block is laid out position-major: [196 positions, 32 batch rows, 512 channels]. At batch row `b` (inside the block) the body sums the input over the 196
  positions, scales by the literal for 1/196, applies the two dense layers (a matrix product is the sum over the
  contracted index of the products of the entries) with the rectifier and the logistic function between and after,
  and multiplies the input by that gate: at position `s`, batch row `b`, channel `c` the stored value is
  `SE.gate (the slab of batch row b) c · input[s, b, c]`. Only batch row `b` of the input is read.
-/
import proofs.«107113_g2000500431775840_pallasbulk_638_6_alg».proof.Proof.Gen.KernelIdeal.Skeleton
import proofs.«107113_g2000500431775840_pallasbulk_638_6_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Pay

open Idealize.ShloMosaic Idealize.ShloMosaic.ValueIdx Cert.KernelIdeal Cert.KernelIdeal.Gen

/-- A sum over the position axis of a block, read at (batch row, channel): the sum over the 196 positions. -/
theorem pool_apply (v : FVec Ideal S196x32x512 .f32) (h : S196x32x512.Reduces [0] S32x512) (hφ : FKind.Formats .f32)
    (hacc : (0x00000000#32 : BitVec 32) = FKind.add.neutral .f32 hφ) (b : Fin 32) (k : Fin 512) :
    multiReduction .add [0] S32x512 v 0x00000000#32 h hφ hacc (ix2 b k) = ∑ s : Fin 196, v (ix3 s b k) :=
  (Ideal.multiReduction_add_single v _ h hφ hacc (ix2 b k)).trans
    (Finset.sum_congr rfl fun s _ => congrArg v (funext fun a => by
      match a with
      | ⟨0, _⟩ => exact Fin.ext rfl
      | ⟨1, _⟩ => exact Fin.ext rfl
      | ⟨2, _⟩ => exact Fin.ext rfl))

/-- The first matrix product into a zero accumulator, read at (batch row, unit): the sum over the 512 channels. -/
theorem mm1_apply (A : FVec Ideal S32x512 .f32) (B : FVec Ideal S512x64 .f32) (b : Fin 32) (j : Fin 64) :
    matmul dot_S32x512_S512x64_S32x64_1_0_0_1_n_n none A B (constant (F := Ideal) S32x64 .f32 0x00000000#32) (ix2 b j)
      = ∑ k : Fin 512, A (ix2 b k) * B (ix2 k j) := by
  refine (Ideal.matmul_constant_zero_apply dot_S32x512_S512x64_S32x64_1_0_0_1_n_n none A B (ix2 b j)).trans ?_
  refine (Equiv.sum_comp (contrEquiv1 dot_S32x512_S512x64_S32x64_1_0_0_1_n_n 512 rfl rfl).symm _).symm.trans ?_
  refine Finset.sum_congr rfl fun k _ => ?_
  have hk := contrEquiv1_symm_val dot_S32x512_S512x64_S32x64_1_0_0_1_n_n 512 rfl rfl k
  have eL : dot_S32x512_S512x64_S32x64_1_0_0_1_n_n.lhsIdx (ix2 b j) ((contrEquiv1 dot_S32x512_S512x64_S32x64_1_0_0_1_n_n 512 rfl rfl).symm k) = ix2 b k :=
    funext fun a => by
      match a with
      | ⟨0, _⟩ => exact Fin.ext rfl
      | ⟨1, _⟩ => exact Fin.ext ((DotDims.lhsIdx_val_of_single _ rfl _ _).trans hk)
  have eR : dot_S32x512_S512x64_S32x64_1_0_0_1_n_n.rhsIdx (ix2 b j) ((contrEquiv1 dot_S32x512_S512x64_S32x64_1_0_0_1_n_n 512 rfl rfl).symm k) = ix2 k j :=
    funext fun a => by
      match a with
      | ⟨0, _⟩ => exact Fin.ext ((DotDims.rhsIdx_val_of_single _ rfl _ _).trans hk)
      | ⟨1, _⟩ => exact Fin.ext rfl
  rw [eL, eR]

/-- The second matrix product into a zero accumulator, read at (batch row, channel): the sum over the 64 units. -/
theorem mm2_apply (A : FVec Ideal S32x64 .f32) (B : FVec Ideal S64x512 .f32) (b : Fin 32) (c : Fin 512) :
    matmul dot_S32x64_S64x512_S32x512_1_0_0_1_n_n none A B (constant (F := Ideal) S32x512 .f32 0x00000000#32) (ix2 b c)
      = ∑ j : Fin 64, A (ix2 b j) * B (ix2 j c) := by
  refine (Ideal.matmul_constant_zero_apply dot_S32x64_S64x512_S32x512_1_0_0_1_n_n none A B (ix2 b c)).trans ?_
  refine (Equiv.sum_comp (contrEquiv1 dot_S32x64_S64x512_S32x512_1_0_0_1_n_n 64 rfl rfl).symm _).symm.trans ?_
  refine Finset.sum_congr rfl fun j _ => ?_
  have hj := contrEquiv1_symm_val dot_S32x64_S64x512_S32x512_1_0_0_1_n_n 64 rfl rfl j
  have eL : dot_S32x64_S64x512_S32x512_1_0_0_1_n_n.lhsIdx (ix2 b c) ((contrEquiv1 dot_S32x64_S64x512_S32x512_1_0_0_1_n_n 64 rfl rfl).symm j) = ix2 b j :=
    funext fun a => by
      match a with
      | ⟨0, _⟩ => exact Fin.ext rfl
      | ⟨1, _⟩ => exact Fin.ext ((DotDims.lhsIdx_val_of_single _ rfl _ _).trans hj)
  have eR : dot_S32x64_S64x512_S32x512_1_0_0_1_n_n.rhsIdx (ix2 b c) ((contrEquiv1 dot_S32x64_S64x512_S32x512_1_0_0_1_n_n 64 rfl rfl).symm j) = ix2 j c :=
    funext fun a => by
      match a with
      | ⟨0, _⟩ => exact Fin.ext ((DotDims.rhsIdx_val_of_single _ rfl _ _).trans hj)
      | ⟨1, _⟩ => exact Fin.ext rfl
  rw [eL, eR]

/-! ## The stored value as three stages -/

/-- The pooled means of the block's batch rows. -/
def stagePool (x0 : Vec Ideal S196x32x512 .f32) : FVec Ideal S32x512 .f32 :=
  mulf (multiReduction .add [0] S32x512 (shapeCast S196x32x512 x0 shapeCasts_S196x32x512_S196x32x512) 0x00000000#32 reduces_S196x32x512_S32x512 (.inl rfl) rfl)
    (broadcast S32x512 (Scalar.ofBits .f32 0x3BA72F05#32))

/-- The first dense layer after the rectifier. -/
def stageHidden (x0 : Vec Ideal S196x32x512 .f32) (x1 : Vec Ideal S512x64 .f32) (x2 : Vec Ideal S1x64 .f32) : FVec Ideal S32x64 .f32 :=
  maximumf (addf (matmul (φ₁ := .f32) (φ₂ := .f32) dot_S32x512_S512x64_S32x64_1_0_0_1_n_n none (stagePool x0) x1 (constant S32x64 .f32 0x00000000#32)) (broadcastTo S32x64 x2 broadcasts_S1x64_S32x64))
    (broadcast S32x64 (Scalar.ofBits .f32 0x00000000#32))

/-- The gate of every batch row of the block. -/
def stageGate (x0 : Vec Ideal S196x32x512 .f32) (x1 : Vec Ideal S512x64 .f32) (x2 : Vec Ideal S1x64 .f32) (x3 : Vec Ideal S64x512 .f32)
    (x4 : Vec Ideal S1x512 .f32) : FVec Ideal S32x512 .f32 :=
  logistic (addf (matmul (φ₁ := .f32) (φ₂ := .f32) dot_S32x64_S64x512_S32x512_1_0_0_1_n_n none (stageHidden x0 x1 x2) x3 (constant S32x512 .f32 0x00000000#32)) (broadcastTo S32x512 x4 broadcasts_S1x512_S32x512))

/-- The stored value is the gate, laid over the positions, times the input. -/
theorem pay_eq (x0 : Vec Ideal S196x32x512 .f32) (x1 : Vec Ideal S512x64 .f32) (x2 : Vec Ideal S1x64 .f32) (x3 : Vec Ideal S64x512 .f32)
    (x4 : Vec Ideal S1x512 .f32) :
    k0_pay1 (F := Ideal) x0 x1 x2 x3 x4
      = mulf (broadcastTo S196x32x512 (shapeCast S1x32x512 (stageGate x0 x1 x2 x3 x4) shapeCasts_S32x512_S1x32x512) broadcasts_S1x32x512_S196x32x512) (shapeCast S196x32x512 x0 shapeCasts_S196x32x512_S196x32x512) := rfl

theorem stagePool_apply (x0 : Vec Ideal S196x32x512 .f32) (b : Fin 32) (k : Fin 512) :
    stagePool x0 (ix2 b k) = SE.pooled (fun s k => x0 (ix3 s b k)) k := by
  unfold stagePool SE.pooled
  rw [mulf_apply, broadcast_apply]
  refine congrArg (· * _) ?_
  refine (pool_apply _ _ _ _ b k).trans ?_
  rw [shapeCast_self]

theorem stageHidden_apply (x0 : Vec Ideal S196x32x512 .f32) (x1 : Vec Ideal S512x64 .f32) (x2 : Vec Ideal S1x64 .f32) (b : Fin 32) (j : Fin 64) :
    stageHidden x0 x1 x2 (ix2 b j) = SE.hidden (fun s k => x0 (ix3 s b k)) x1 x2 j := by
  unfold stageHidden SE.hidden
  rw [maximumf_apply, addf_apply, broadcast_apply, mm1_apply, broadcastTo_1b_ab_apply]
  simp only [stagePool_apply]

theorem stageGate_apply (x0 : Vec Ideal S196x32x512 .f32) (x1 : Vec Ideal S512x64 .f32) (x2 : Vec Ideal S1x64 .f32) (x3 : Vec Ideal S64x512 .f32)
    (x4 : Vec Ideal S1x512 .f32) (b : Fin 32) (c : Fin 512) :
    stageGate x0 x1 x2 x3 x4 (ix2 b c) = SE.gate (fun s k => x0 (ix3 s b k)) x1 x2 x3 x4 c := by
  unfold stageGate SE.gate logistic
  rw [addf_apply, mm2_apply, broadcastTo_1b_ab_apply]
  simp only [stageHidden_apply]

/-- THE STORED VALUE AT AN INDEX: the gate of the index's batch row at its channel, times the input there. -/
theorem pay_apply (x0 : Vec Ideal S196x32x512 .f32) (x1 : Vec Ideal S512x64 .f32) (x2 : Vec Ideal S1x64 .f32) (x3 : Vec Ideal S64x512 .f32)
    (x4 : Vec Ideal S1x512 .f32) (s : Fin 196) (b : Fin 32) (c : Fin 512) :
    k0_pay1 (F := Ideal) x0 x1 x2 x3 x4 (ix3 s b c)
      = SE.gate (fun s' k => x0 (ix3 s' b k)) x1 x2 x3 x4 c * x0 (ix3 s b c) := by
  rw [pay_eq, mulf_apply, shapeCast_self]
  rw [broadcastTo_apply (shapeCast S1x32x512 (stageGate x0 x1 x2 x3 x4) shapeCasts_S32x512_S1x32x512) broadcasts_S1x32x512_S196x32x512
      (ix3 s b c) (ix3 (0 : Fin 1) b c) (fun a => by
        match a with
        | ⟨0, _⟩ => rfl
        | ⟨1, _⟩ => rfl
        | ⟨2, _⟩ => rfl)]
  rw [shapeCast_ab_1ab_apply, stageGate_apply]

/-- Two input blocks that agree on batch row `b` give stored blocks that agree on batch row `b`. -/
theorem pay_rows (X X' : Vec Ideal S196x32x512 .f32) (x1 : Vec Ideal S512x64 .f32) (x2 : Vec Ideal S1x64 .f32)
    (x3 : Vec Ideal S64x512 .f32) (x4 : Vec Ideal S1x512 .f32) (b : Fin 32)
    (h : ∀ (s : Fin 196) (c : Fin 512), X (ix3 s b c) = X' (ix3 s b c)) (s : Fin 196) (c : Fin 512) :
    k0_pay1 (F := Ideal) X x1 x2 x3 x4 (ix3 s b c) = k0_pay1 (F := Ideal) X' x1 x2 x3 x4 (ix3 s b c) := by
  rw [pay_apply, pay_apply, h s c, SE.gate_congr (fun s' k => h s' k)]

end Cert.KernelIdeal.Pay

end
-- ==== Proof.KernelHost.lean ====
/-
  The host operations around the kernel under proof's region, read at an index.

  Before the region the input `x[b, c, h, w]` is re-laid position-major, [196 positions, 128 batch rows, 512 channels]: the array the region reads holds, at
  (position `s`, batch row `b`, channel `c`), the input at batch row `b`, channel `c`, row `s / 14`, column `s % 14` (a transpose is a
  permutation of the coordinates, a reshape keeps the row-major position, and `s = 14 · (s / 14) + s % 14`).
  After the region the result is laid back: the program's result at `[b, c, h, w]` is the region's output array at
  position `14 · h + w`, batch row `b`, channel `c`.
-/
import proofs.«107113_g2000500431775840_pallasbulk_638_6_alg».proof.Proof.Gen.KernelIdeal.Frame
import proofs.«107113_g2000500431775840_pallasbulk_638_6_alg».proof.Proof.Spec
import Idealize.ShloMosaic.Lib.Pipeline.Value
import Idealize.ShloMosaic.Lib.StableHlo.Run
import Idealize.ShloMosaic.Lib.ValueIdx

noncomputable section

namespace Cert.KernelIdeal.Host

open Idealize.ShloMosaic Idealize.ShloMosaic.TcCoe Idealize.ShloMosaic.ValueIdx Idealize.SL.Sem
open Cert.KernelIdeal Cert.KernelIdeal.Gen
open Idealize.ShloMosaic.Pipeline (Dat)

variable (m : (ℓ : Loc nD τ sig) → Buf (Elt Ideal) ℓ)

/-- THE REGION'S INPUT ARRAY at (position `s`, batch row `b`, channel `c`) is the input at `[b, c, s / 14, s % 14]`. -/
theorem V1_apply (c : Dev nD) (s : Fin 196) (B : Fin 128) (k : Fin 512) :
    V m c main_call0_v1 (ix3 s B k) = m ((c : Thread nD τ).loc main_arg0) (ix4 B k (SE.rowOf s) (SE.colOf s)) := by
  have e : (V m c main_call0_v1 : S196x128x512.Idx → Elt Ideal .f32) =
      shapeCast S196x128x512 (transpose S14x14x128x512 [2, 3, 0, 1] (m ((c : Thread nD τ).loc main_arg0)) transposes_S128x512x14x14_S14x14x128x512_2_3_0_1) shapeCasts_S14x14x128x512_S196x128x512 := by
    show StableHlo.after hostOps0 (fun b => m (c, b)) (Proc.devRef .tc main_call0_v1) = _
    after_results
    rfl
  rw [e, shapeCast_apply _ _ (ix3 s B k) (ix4 (SE.rowOf s) (SE.colOf s) B k) (by
    rw [Shape.rowMajor_val_four, Shape.rowMajor_val_three]
    show (((s.val / 14) * 14 + (s.val % 14)) * 128 + B.val) * 512 + k.val = (s.val * 128 + B.val) * 512 + k.val
    have := Nat.div_add_mod s.val 14
    have hs : s.val / 14 * 14 + s.val % 14 = s.val := by omega
    rw [hs])]
  exact transpose_apply _ _ _ (ix4 (SE.rowOf s) (SE.colOf s) B k) (ix4 B k (SE.rowOf s) (SE.colOf s)) (fun a => by
    match a with
    | ⟨0, _⟩ => rfl
    | ⟨1, _⟩ => rfl
    | ⟨2, _⟩ => rfl
    | ⟨3, _⟩ => rfl)

/-- THE PROGRAM'S RESULT at `[b, c, h, w]`, for any proof data of the region, is the region's output array after the run at
    position `14 · h + w`, batch row `b`, channel `c`. -/
theorem out_apply (dats : (p : Fin 1) → (c : Dev nD) → Dat τ (Elt Ideal) Unit ℕ (UR sig nD τ) ℕ (cfgs p) c) (c : Dev nD)
    (b : Fin 128) (k : Fin 512) (h w : Fin 14) :
    Pipeline.afterTail₀ cfgs dats 0 (V0 m) [hostOps1] c main_v0 (ix4 b k h w)
      = (dats 0 c).arrAt 5 cfg0.N (ix3 (SE.posOf h w) b k) := by
  have e : (Pipeline.afterTail₀ cfgs dats 0 (V0 m) [hostOps1] c main_v0 : S128x512x14x14.Idx → Elt Ideal .f32)
      = transpose S128x512x14x14 [2, 3, 0, 1] (shapeCast S14x14x128x512 ((dats 0 c).arrAt 5 cfg0.N) shapeCasts_S196x128x512_S14x14x128x512) transposes_S14x14x128x512_S128x512x14x14_2_3_0_1 := by
    unfold Pipeline.afterTail₀
    show StableHlo.after hostOps1 _ (Proc.devRef .tc main_v0) = _
    after_results
    have hw := Pipeline.withArrays_arr spec0 launch0.win.arr_inj c (V0 m c) (fun w => (dats 0 c).arrAt w cfg0.N) 5
    show transpose S128x512x14x14 [2, 3, 0, 1] (shapeCast S14x14x128x512 (Pipeline.withArrays spec0 c (V0 m c) (fun w => (dats 0 c).arrAt w cfg0.N)
      (Proc.devRef .tc (Pipeline.arrRef spec0 5))) shapeCasts_S196x128x512_S14x14x128x512) transposes_S14x14x128x512_S128x512x14x14_2_3_0_1 = _
    rw [hw]
  rw [e, transpose_apply _ _ _ (ix4 b k h w) (ix4 h w b k) (fun a => by
    match a with
    | ⟨0, _⟩ => rfl
    | ⟨1, _⟩ => rfl
    | ⟨2, _⟩ => rfl
    | ⟨3, _⟩ => rfl)]
  exact shapeCast_apply _ _ (ix4 h w b k) (ix3 (SE.posOf h w) b k) (by
    rw [Shape.rowMajor_val_four, Shape.rowMajor_val_three]
    rfl)

end Cert.KernelIdeal.Host

end
-- ==== Proof.KernelValue.lean ====
/-
  The kernel's run, read as a value: after the run its result is `SE.result` of the argument arrays.

  The region's output array is position-major, [196, 128, 512], cut along the batch axis into four blocks of 32 batch rows
  (grid point `t` holds batch rows `32 t … 32 t + 31`; every block spans all positions and channels). What point `t`
  writes back is, entry by entry, the gate of that entry's batch row times the input there — a block of ONE function of
  the whole input array (`arrFn`), because the stored value at batch row `b` reads the input block at row `b` only and
  the weights are whole arrays. The four blocks cover the array, so the array ends holding `arrFn`; with the re-layouts
  before and after the region that is `SE.result`.
-/
import proofs.«107113_g2000500431775840_pallasbulk_638_6_alg».proof.Proof.Gen.KernelIdeal.Frame
import proofs.«107113_g2000500431775840_pallasbulk_638_6_alg».proof.Proof.KernelPay
import proofs.«107113_g2000500431775840_pallasbulk_638_6_alg».proof.Proof.KernelHost
import Idealize.ShloMosaic.Lib.Pipeline.Value
import Idealize.ShloMosaic.Lib.ValueIdx

noncomputable section

namespace Cert.KernelIdeal.Val

open Idealize.ShloMosaic Idealize.ShloMosaic.TcCoe Idealize.ShloMosaic.ValueIdx Idealize.SL.Sem
open Cert.KernelIdeal Cert.KernelIdeal.Gen
open Idealize.ShloMosaic.Pipeline (Dat)

variable (m : (ℓ : Loc nD τ sig) → Buf (Elt Ideal) ℓ) (ρ : Dev nD → PrngReg)

theorem hz3 : (![0, 0, 0] : Fin 3 → Nat) = fun _ => 0 := funext fun a => by fin_cases a <;> rfl
theorem hz2 : (![0, 0] : Fin 2 → Nat) = fun _ => 0 := funext fun a => by fin_cases a <;> rfl

/-- The region's output array as one function of its input array `V1` (position-major) and the weights: at
    (position, batch row, channel) the gate of that batch row at that channel, times `V1` there. -/
def arrFn (V1 : S196x128x512.Idx → EReal) (w1 : S512x64.Idx → EReal) (b1 : S1x64.Idx → EReal) (w2 : S64x512.Idx → EReal)
    (b2 : S1x512.Idx → EReal) : S196x128x512.Idx → EReal :=
  fun i => SE.gate (fun s k => V1 (ix3 s (i 1 : Fin 128) k)) w1 b1 w2 b2 (i 2 : Fin 512) * V1 i

theorem arrFn_apply (V1 : S196x128x512.Idx → EReal) (w1 : S512x64.Idx → EReal) (b1 : S1x64.Idx → EReal) (w2 : S64x512.Idx → EReal)
    (b2 : S1x512.Idx → EReal) (s : Fin 196) (B : Fin 128) (c : Fin 512) :
    arrFn V1 w1 b1 w2 b2 (ix3 s B c) = SE.gate (fun s' k => V1 (ix3 s' B k)) w1 b1 w2 b2 c * V1 (ix3 s B c) := rfl

/-- The printed index maps over the grid: the input's and the output's blocks move along the batch axis with the point,
    the weights' blocks are the whole arrays. -/
theorem idx_facts : ∀ t : Fin cfg0.N,
    win0_0.index t (0 : Fin 3) = 0 ∧ win0_0.index t (1 : Fin 3) = t.val ∧ win0_0.index t (2 : Fin 3) = 0
    ∧ win0_5.index t (0 : Fin 3) = 0 ∧ win0_5.index t (1 : Fin 3) = t.val ∧ win0_5.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0 :=
  (by decide +kernel : ∀ t : Fin grid0.N, _)

/-- The input block at point `t`, entry (s, b, k), is the region's input array at batch row `32 t + b`. -/
theorem read0 (c : Dev nD) (t : Fin cfg0.N) (s : Fin 196) (b : Fin 32) (k : Fin 512) (B : Fin 128) (hB : B.val = t.val * 32 + b.val) :
    iblk m c 0 t (ix3 s b k) = V m c main_call0_v1 (ix3 s B k) := by
  show V m c main_call0_v1 (((cfg0.win 0).blk t).view.emb (ix3 s b k)) = V m c main_call0_v1 (ix3 s B k)
  refine congrArg _ (funext fun a => Fin.ext ?_)
  obtain ⟨e0, e1, e2, -⟩ := idx_facts t
  match a with
  | ⟨0, _⟩ => show win0_0.index t (0 : Fin 3) * 196 + 1 * s.val = s.val; omega
  | ⟨1, _⟩ => show win0_0.index t (1 : Fin 3) * 32 + 1 * b.val = B.val; omega
  | ⟨2, _⟩ => show win0_0.index t (2 : Fin 3) * 512 + 1 * k.val = k.val; omega

/-- Each weight's block is its whole array. -/
theorem read1 (c : Dev nD) (t : Fin cfg0.N) : (iblk m c 1 t : S512x64.Idx → Elt Ideal .f32) = V m c main_arg1 := by
  funext y
  show V m c main_arg1 (((cfg0.win 1).blk t).view.emb y) = V m c main_arg1 y
  refine congrArg _ (funext fun a => Fin.ext ?_)
  obtain ⟨-, -, -, -, -, -, e0, e1, -⟩ := idx_facts t
  match a with
  | ⟨0, _⟩ => show win0_1.index t (0 : Fin 2) * 512 + 1 * (y 0).val = (y 0).val; omega
  | ⟨1, _⟩ => show win0_1.index t (1 : Fin 2) * 64 + 1 * (y 1).val = (y 1).val; omega
theorem read2 (c : Dev nD) (t : Fin cfg0.N) : (iblk m c 2 t : S1x64.Idx → Elt Ideal .f32) = V m c main_arg2 := by
  funext y
  show V m c main_arg2 (((cfg0.win 2).blk t).view.emb y) = V m c main_arg2 y
  refine congrArg _ (funext fun a => Fin.ext ?_)
  obtain ⟨-, -, -, -, -, -, -, -, e0, e1, -⟩ := idx_facts t
  match a with
  | ⟨0, _⟩ => show win0_2.index t (0 : Fin 2) * 1 + 1 * (y 0).val = (y 0).val; omega
  | ⟨1, _⟩ => show win0_2.index t (1 : Fin 2) * 64 + 1 * (y 1).val = (y 1).val; omega
theorem read3 (c : Dev nD) (t : Fin cfg0.N) : (iblk m c 3 t : S64x512.Idx → Elt Ideal .f32) = V m c main_arg3 := by
  funext y
  show V m c main_arg3 (((cfg0.win 3).blk t).view.emb y) = V m c main_arg3 y
  refine congrArg _ (funext fun a => Fin.ext ?_)
  obtain ⟨-, -, -, -, -, -, -, -, -, -, e0, e1, -⟩ := idx_facts t
  match a with
  | ⟨0, _⟩ => show win0_3.index t (0 : Fin 2) * 64 + 1 * (y 0).val = (y 0).val; omega
  | ⟨1, _⟩ => show win0_3.index t (1 : Fin 2) * 512 + 1 * (y 1).val = (y 1).val; omega
theorem read4 (c : Dev nD) (t : Fin cfg0.N) : (iblk m c 4 t : S1x512.Idx → Elt Ideal .f32) = V m c main_arg4 := by
  funext y
  show V m c main_arg4 (((cfg0.win 4).blk t).view.emb y) = V m c main_arg4 y
  refine congrArg _ (funext fun a => Fin.ext ?_)
  obtain ⟨-, -, -, -, -, -, -, -, -, -, -, -, e0, e1⟩ := idx_facts t
  match a with
  | ⟨0, _⟩ => show win0_4.index t (0 : Fin 2) * 1 + 1 * (y 0).val = (y 0).val; omega
  | ⟨1, _⟩ => show win0_4.index t (1 : Fin 2) * 512 + 1 * (y 1).val = (y 1).val; omega

/-- WHAT POINT `t` WRITES BACK is block `t` of `arrFn` of the arrays as the region finds them. -/
theorem flushed_eq (c : Dev nD) (t : Fin cfg0.N) :
    (dats m 0 c).flushed 5 t = ((cfg0.win 5).blk t).view.read (Elt Ideal)
      (arrFn (V m c main_call0_v1) (V m c main_arg1) (V m c main_arg2) (V m c main_arg3) (V m c main_arg4)) := by
  show (cfg0.win 5).cut (grid0.coords t) ((dats m 0 c).after 5 t) = _
  rw [after0_5]
  unfold out0_5
  rw [View.canon_unit_zero hz3]
  simp only [View.ld_unit_zero (S := S196x32x512) hz3, View.ld_unit_zero (S := S512x64) hz2, View.ld_unit_zero (S := S1x64) hz2,
    View.ld_unit_zero (S := S64x512) hz2, View.ld_unit_zero (S := S1x512) hz2]
  funext j
  obtain ⟨s, b, k, rfl⟩ : ∃ (s : Fin 196) (b : Fin 32) (k : Fin 512), j = ix3 s b k := ⟨j 0, j 1, j 2, eq_ix3 j⟩
  have ht : t.val < grid0.N := t.isLt
  rw [N_0] at ht
  have hb := b.isLt
  obtain ⟨-, -, -, e3, e4, e5, -⟩ := idx_facts t
  have e5' : ((cfg0.win 5).blk t).view.emb (ix3 s b k) = ix3 s (⟨t.val * 32 + b.val, by omega⟩ : Fin 128) k :=
    funext fun a => Fin.ext (by
      match a with
      | ⟨0, _⟩ => show win0_5.index t (0 : Fin 3) * 196 + 1 * s.val = s.val; omega
      | ⟨1, _⟩ => show win0_5.index t (1 : Fin 3) * 32 + 1 * b.val = t.val * 32 + b.val; omega
      | ⟨2, _⟩ => show win0_5.index t (2 : Fin 3) * 512 + 1 * k.val = k.val; omega)
  show k0_pay1 (F := Ideal) (iblk m c 0 t) (iblk m c 1 t) (iblk m c 2 t) (iblk m c 3 t) (iblk m c 4 t) (ix3 s b k)
    = arrFn (V m c main_call0_v1) (V m c main_arg1) (V m c main_arg2) (V m c main_arg3) (V m c main_arg4)
        (((cfg0.win 5).blk t).view.emb (ix3 s b k))
  rw [e5', arrFn_apply]
  refine (Pay.pay_apply (iblk m c 0 t) (iblk m c 1 t) (iblk m c 2 t) (iblk m c 3 t) (iblk m c 4 t) s b k).trans ?_
  rw [read1, read2, read3, read4, read0 m c t s b k ⟨t.val * 32 + b.val, by omega⟩ rfl,
    SE.gate_congr (fun s' k' => read0 m c t s' b k' ⟨t.val * 32 + b.val, by omega⟩ rfl)]

/-- An index of the array is in point `t`'s block iff each coordinate is in the block's range on its axis. -/
theorem mem_blk (t : Fin cfg0.N) (i : S196x128x512.Idx) :
    i ∈ ((cfg0.win 5).blk t).view.set ↔ ∀ a : Fin 3, win0_5.index t a * S196x32x512.size a ≤ (i a).val
      ∧ (i a).val < win0_5.index t a * S196x32x512.size a + S196x32x512.size a := by
  show i ∈ ((View.whole main_call0_v2).slice (win0_5.rect t)).set ↔ _
  rw [View.set_slice_whole, Rect.mem_set_unit]
  exact Iff.rfl

/-- Every index of the output array is in the block of the point that holds its batch row, `b / 32`. -/
theorem cover (i : S196x128x512.Idx) : ∃ t : Fin cfg0.N, (cfg0.win 5).flush t = true ∧ i ∈ ((cfg0.win 5).blk t).view.set := by
  have h0 : (i 0).val < 196 := (i 0).isLt
  have h1 : (i 1).val < 128 := (i 1).isLt
  have h2 : (i 2).val < 512 := (i 2).isLt
  have hN : grid0.N = 4 := N_0
  refine ⟨⟨(i 1).val / 32, by show (i 1).val / 32 < grid0.N; omega⟩, flush0_5 _, ?_⟩
  rw [mem_blk]
  obtain ⟨-, -, -, e3, e4, e5, -⟩ := idx_facts ⟨(i 1).val / 32, by show (i 1).val / 32 < grid0.N; omega⟩
  intro a
  match a with
  | ⟨0, _⟩ =>
    show win0_5.index _ (0 : Fin 3) * 196 ≤ (i 0).val ∧ (i 0).val < win0_5.index _ (0 : Fin 3) * 196 + 196
    rw [e3]; omega
  | ⟨1, _⟩ =>
    show win0_5.index _ (1 : Fin 3) * 32 ≤ (i 1).val ∧ (i 1).val < win0_5.index _ (1 : Fin 3) * 32 + 32
    rw [e4]; show (i 1).val / 32 * 32 ≤ (i 1).val ∧ (i 1).val < (i 1).val / 32 * 32 + 32; omega
  | ⟨2, _⟩ =>
    show win0_5.index _ (2 : Fin 3) * 512 ≤ (i 2).val ∧ (i 2).val < win0_5.index _ (2 : Fin 3) * 512 + 512
    rw [e5]; omega

/-- THE OUTPUT ARRAY after the run. -/
theorem final (c : Dev nD) : (dats m 0 c).arrAt 5 cfg0.N
    = arrFn (V m c main_call0_v1) (V m c main_arg1) (V m c main_arg2) (V m c main_arg3) (V m c main_arg4) :=
  (dats m 0 c).arrAt_eq_of_cover 5 _ (fun t _ => flushed_eq m c t) cover

/-- THE PROGRAM'S RESULT after the run is `SE.result` of the argument arrays. -/
theorem out_eq (c : Dev nD) :
    (Pipeline.afterTail₀ cfgs (dats m) 0 (V0 m) [hostOps1] c main_v0 : S128x512x14x14.Idx → Elt Ideal .f32)
      = SE.result (m ((c : Thread nD τ).loc main_arg0)) (m ((c : Thread nD τ).loc main_arg1)) (m ((c : Thread nD τ).loc main_arg2))
          (m ((c : Thread nD τ).loc main_arg3)) (m ((c : Thread nD τ).loc main_arg4)) := by
  funext i
  obtain ⟨b, k, h, w, rfl⟩ : ∃ (b : Fin 128) (k : Fin 512) (h w : Fin 14), i = ix4 b k h w := ⟨i 0, i 1, i 2, i 3, eq_ix4 i⟩
  rw [Host.out_apply m (dats m) c b k h w, final, arrFn_apply, SE.result_apply]
  unfold SE.resAt
  rw [Host.V1_apply, SE.rowOf_posOf, SE.colOf_posOf, V_main_arg1, V_main_arg2, V_main_arg3, V_main_arg4,
    SE.gate_congr (fun s' k' => Host.V1_apply m c s' b k')]

/-- The kernel's run with its result named: every weakly fair execution terminates with the result at `SE.result` of the
    argument arrays and the arguments unchanged. -/
theorem run : θ_run defs (onTc (τ := τ) (main (F := Ideal))) ⟨m, fun _ => 0, ρ⟩ fun r => ∀ c : Dev nD,
      r.2.mem ((c.tc : Thread nD τ).loc main_v0) = SE.result (m ((c : Thread nD τ).loc main_arg0)) (m ((c : Thread nD τ).loc main_arg1))
          (m ((c : Thread nD τ).loc main_arg2)) (m ((c : Thread nD τ).loc main_arg3)) (m ((c : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c =>
      ⟨(((h c).2 main_v0 (Pipeline.mem_restRefs_of main_v0 (by decide) (by decide))).trans (out_eq m c)),
        ((h c).2 main_arg0 (Pipeline.mem_restRefs_of main_arg0 (by decide) (by decide))).trans (W_main_arg0 m (dats m) c),
        ((h c).1 1).trans (((dats m 0 c).arrAt_in 1 rfl _).trans ((A_eq m c 1).trans (V_main_arg1 m c))),
        ((h c).1 2).trans (((dats m 0 c).arrAt_in 2 rfl _).trans ((A_eq m c 2).trans (V_main_arg2 m c))),
        ((h c).1 3).trans (((dats m 0 c).arrAt_in 3 rfl _).trans ((A_eq m c 3).trans (V_main_arg3 m c))),
        ((h c).1 4).trans (((dats m 0 c).arrAt_in 4 rfl _).trans ((A_eq m c 4).trans (V_main_arg4 m c)))⟩)
    (run_main m ρ)

end Cert.KernelIdeal.Val

end
-- ==== Proof.RefPay.lean ====
/-
  The value the reference's kernel stores, read at one index of its block.

  The block is laid out batch-major: [5 batch rows, 196 positions, 512 channels]. At batch row `b` (inside the block) the body sums the input over the 196
  positions, scales by the literal for 1/196, applies the two dense layers (a matrix product is the sum over the
  contracted index of the products of the entries) with the rectifier and the logistic function between and after,
  and multiplies the input by that gate: at position `s`, batch row `b`, channel `c` the stored value is
  `SE.gate (the slab of batch row b) c · input[s, b, c]`. Only batch row `b` of the input is read.
-/
import proofs.«107113_g2000500431775840_pallasbulk_638_6_alg».proof.Proof.Gen.ReferenceIdeal.Skeleton
import proofs.«107113_g2000500431775840_pallasbulk_638_6_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

namespace Cert.ReferenceIdeal.Pay

open Idealize.ShloMosaic Idealize.ShloMosaic.ValueIdx Cert.ReferenceIdeal Cert.ReferenceIdeal.Gen

/-- A sum over the position axis of a block, read at (batch row, channel): the sum over the 196 positions. -/
theorem pool_apply (v : FVec Ideal S5x196x512 .f32) (h : S5x196x512.Reduces [1] S5x512) (hφ : FKind.Formats .f32)
    (hacc : (0x00000000#32 : BitVec 32) = FKind.add.neutral .f32 hφ) (b : Fin 5) (k : Fin 512) :
    multiReduction .add [1] S5x512 v 0x00000000#32 h hφ hacc (ix2 b k) = ∑ s : Fin 196, v (ix3 b s k) :=
  (Ideal.multiReduction_add_single v _ h hφ hacc (ix2 b k)).trans
    (Finset.sum_congr rfl fun s _ => congrArg v (funext fun a => by
      match a with
      | ⟨0, _⟩ => exact Fin.ext rfl
      | ⟨1, _⟩ => exact Fin.ext rfl
      | ⟨2, _⟩ => exact Fin.ext rfl))

/-- The first matrix product into a zero accumulator, read at (batch row, unit): the sum over the 512 channels. -/
theorem mm1_apply (A : FVec Ideal S5x512 .f32) (B : FVec Ideal S512x64 .f32) (b : Fin 5) (j : Fin 64) :
    matmul dot_S5x512_S512x64_S5x64_1_0_0_1_n_n none A B (constant (F := Ideal) S5x64 .f32 0x00000000#32) (ix2 b j)
      = ∑ k : Fin 512, A (ix2 b k) * B (ix2 k j) := by
  refine (Ideal.matmul_constant_zero_apply dot_S5x512_S512x64_S5x64_1_0_0_1_n_n none A B (ix2 b j)).trans ?_
  refine (Equiv.sum_comp (contrEquiv1 dot_S5x512_S512x64_S5x64_1_0_0_1_n_n 512 rfl rfl).symm _).symm.trans ?_
  refine Finset.sum_congr rfl fun k _ => ?_
  have hk := contrEquiv1_symm_val dot_S5x512_S512x64_S5x64_1_0_0_1_n_n 512 rfl rfl k
  have eL : dot_S5x512_S512x64_S5x64_1_0_0_1_n_n.lhsIdx (ix2 b j) ((contrEquiv1 dot_S5x512_S512x64_S5x64_1_0_0_1_n_n 512 rfl rfl).symm k) = ix2 b k :=
    funext fun a => by
      match a with
      | ⟨0, _⟩ => exact Fin.ext rfl
      | ⟨1, _⟩ => exact Fin.ext ((DotDims.lhsIdx_val_of_single _ rfl _ _).trans hk)
  have eR : dot_S5x512_S512x64_S5x64_1_0_0_1_n_n.rhsIdx (ix2 b j) ((contrEquiv1 dot_S5x512_S512x64_S5x64_1_0_0_1_n_n 512 rfl rfl).symm k) = ix2 k j :=
    funext fun a => by
      match a with
      | ⟨0, _⟩ => exact Fin.ext ((DotDims.rhsIdx_val_of_single _ rfl _ _).trans hk)
      | ⟨1, _⟩ => exact Fin.ext rfl
  rw [eL, eR]

/-- The second matrix product into a zero accumulator, read at (batch row, channel): the sum over the 64 units. -/
theorem mm2_apply (A : FVec Ideal S5x64 .f32) (B : FVec Ideal S64x512 .f32) (b : Fin 5) (c : Fin 512) :
    matmul dot_S5x64_S64x512_S5x512_1_0_0_1_n_n none A B (constant (F := Ideal) S5x512 .f32 0x00000000#32) (ix2 b c)
      = ∑ j : Fin 64, A (ix2 b j) * B (ix2 j c) := by
  refine (Ideal.matmul_constant_zero_apply dot_S5x64_S64x512_S5x512_1_0_0_1_n_n none A B (ix2 b c)).trans ?_
  refine (Equiv.sum_comp (contrEquiv1 dot_S5x64_S64x512_S5x512_1_0_0_1_n_n 64 rfl rfl).symm _).symm.trans ?_
  refine Finset.sum_congr rfl fun j _ => ?_
  have hj := contrEquiv1_symm_val dot_S5x64_S64x512_S5x512_1_0_0_1_n_n 64 rfl rfl j
  have eL : dot_S5x64_S64x512_S5x512_1_0_0_1_n_n.lhsIdx (ix2 b c) ((contrEquiv1 dot_S5x64_S64x512_S5x512_1_0_0_1_n_n 64 rfl rfl).symm j) = ix2 b j :=
    funext fun a => by
      match a with
      | ⟨0, _⟩ => exact Fin.ext rfl
      | ⟨1, _⟩ => exact Fin.ext ((DotDims.lhsIdx_val_of_single _ rfl _ _).trans hj)
  have eR : dot_S5x64_S64x512_S5x512_1_0_0_1_n_n.rhsIdx (ix2 b c) ((contrEquiv1 dot_S5x64_S64x512_S5x512_1_0_0_1_n_n 64 rfl rfl).symm j) = ix2 j c :=
    funext fun a => by
      match a with
      | ⟨0, _⟩ => exact Fin.ext ((DotDims.rhsIdx_val_of_single _ rfl _ _).trans hj)
      | ⟨1, _⟩ => exact Fin.ext rfl
  rw [eL, eR]

/-! ## The stored value as three stages -/

/-- The pooled means of the block's batch rows. -/
def stagePool (x0 : Vec Ideal S5x196x512 .f32) : FVec Ideal S5x512 .f32 :=
  mulf (multiReduction .add [1] S5x512 (shapeCast S5x196x512 x0 shapeCasts_S5x196x512_S5x196x512) 0x00000000#32 reduces_S5x196x512_S5x512 (.inl rfl) rfl)
    (broadcast S5x512 (Scalar.ofBits .f32 0x3BA72F05#32))

/-- The first dense layer after the rectifier. -/
def stageHidden (x0 : Vec Ideal S5x196x512 .f32) (x1 : Vec Ideal S512x64 .f32) (x2 : Vec Ideal S1x64 .f32) : FVec Ideal S5x64 .f32 :=
  maximumf (addf (matmul (φ₁ := .f32) (φ₂ := .f32) dot_S5x512_S512x64_S5x64_1_0_0_1_n_n none (stagePool x0) x1 (constant S5x64 .f32 0x00000000#32)) (broadcastTo S5x64 x2 broadcasts_S1x64_S5x64))
    (broadcast S5x64 (Scalar.ofBits .f32 0x00000000#32))

/-- The gate of every batch row of the block. -/
def stageGate (x0 : Vec Ideal S5x196x512 .f32) (x1 : Vec Ideal S512x64 .f32) (x2 : Vec Ideal S1x64 .f32) (x3 : Vec Ideal S64x512 .f32)
    (x4 : Vec Ideal S1x512 .f32) : FVec Ideal S5x512 .f32 :=
  logistic (addf (matmul (φ₁ := .f32) (φ₂ := .f32) dot_S5x64_S64x512_S5x512_1_0_0_1_n_n none (stageHidden x0 x1 x2) x3 (constant S5x512 .f32 0x00000000#32)) (broadcastTo S5x512 x4 broadcasts_S1x512_S5x512))

/-- The stored value is the gate, laid over the positions, times the input. -/
theorem pay_eq (x0 : Vec Ideal S5x196x512 .f32) (x1 : Vec Ideal S512x64 .f32) (x2 : Vec Ideal S1x64 .f32) (x3 : Vec Ideal S64x512 .f32)
    (x4 : Vec Ideal S1x512 .f32) :
    k0_pay1 (F := Ideal) x0 x1 x2 x3 x4
      = mulf (broadcastTo S5x196x512 (shapeCast S5x1x512 (stageGate x0 x1 x2 x3 x4) shapeCasts_S5x512_S5x1x512) broadcasts_S5x1x512_S5x196x512) (shapeCast S5x196x512 x0 shapeCasts_S5x196x512_S5x196x512) := rfl

theorem stagePool_apply (x0 : Vec Ideal S5x196x512 .f32) (b : Fin 5) (k : Fin 512) :
    stagePool x0 (ix2 b k) = SE.pooled (fun s k => x0 (ix3 b s k)) k := by
  unfold stagePool SE.pooled
  rw [mulf_apply, broadcast_apply]
  refine congrArg (· * _) ?_
  refine (pool_apply _ _ _ _ b k).trans ?_
  rw [shapeCast_self]

theorem stageHidden_apply (x0 : Vec Ideal S5x196x512 .f32) (x1 : Vec Ideal S512x64 .f32) (x2 : Vec Ideal S1x64 .f32) (b : Fin 5) (j : Fin 64) :
    stageHidden x0 x1 x2 (ix2 b j) = SE.hidden (fun s k => x0 (ix3 b s k)) x1 x2 j := by
  unfold stageHidden SE.hidden
  rw [maximumf_apply, addf_apply, broadcast_apply, mm1_apply, broadcastTo_1b_ab_apply]
  simp only [stagePool_apply]

theorem stageGate_apply (x0 : Vec Ideal S5x196x512 .f32) (x1 : Vec Ideal S512x64 .f32) (x2 : Vec Ideal S1x64 .f32) (x3 : Vec Ideal S64x512 .f32)
    (x4 : Vec Ideal S1x512 .f32) (b : Fin 5) (c : Fin 512) :
    stageGate x0 x1 x2 x3 x4 (ix2 b c) = SE.gate (fun s k => x0 (ix3 b s k)) x1 x2 x3 x4 c := by
  unfold stageGate SE.gate logistic
  rw [addf_apply, mm2_apply, broadcastTo_1b_ab_apply]
  simp only [stageHidden_apply]

/-- THE STORED VALUE AT AN INDEX: the gate of the index's batch row at its channel, times the input there. -/
theorem pay_apply (x0 : Vec Ideal S5x196x512 .f32) (x1 : Vec Ideal S512x64 .f32) (x2 : Vec Ideal S1x64 .f32) (x3 : Vec Ideal S64x512 .f32)
    (x4 : Vec Ideal S1x512 .f32) (s : Fin 196) (b : Fin 5) (c : Fin 512) :
    k0_pay1 (F := Ideal) x0 x1 x2 x3 x4 (ix3 b s c)
      = SE.gate (fun s' k => x0 (ix3 b s' k)) x1 x2 x3 x4 c * x0 (ix3 b s c) := by
  rw [pay_eq, mulf_apply, shapeCast_self]
  rw [broadcastTo_apply (shapeCast S5x1x512 (stageGate x0 x1 x2 x3 x4) shapeCasts_S5x512_S5x1x512) broadcasts_S5x1x512_S5x196x512
      (ix3 b s c) (ix3 b (0 : Fin 1) c) (fun a => by
        match a with
        | ⟨0, _⟩ => rfl
        | ⟨1, _⟩ => rfl
        | ⟨2, _⟩ => rfl)]
  rw [shapeCast_apply (stageGate x0 x1 x2 x3 x4) shapeCasts_S5x512_S5x1x512 (ix3 b (0 : Fin 1) c) (ix2 b c) (by
      rw [Shape.rowMajor_val_two, Shape.rowMajor_val_three]
      show b.val * 512 + c.val = (b.val * 1 + 0) * 512 + c.val
      omega), stageGate_apply]

/-- Two input blocks that agree on batch row `b` give stored blocks that agree on batch row `b`. -/
theorem pay_rows (X X' : Vec Ideal S5x196x512 .f32) (x1 : Vec Ideal S512x64 .f32) (x2 : Vec Ideal S1x64 .f32)
    (x3 : Vec Ideal S64x512 .f32) (x4 : Vec Ideal S1x512 .f32) (b : Fin 5)
    (h : ∀ (s : Fin 196) (c : Fin 512), X (ix3 b s c) = X' (ix3 b s c)) (s : Fin 196) (c : Fin 512) :
    k0_pay1 (F := Ideal) X x1 x2 x3 x4 (ix3 b s c) = k0_pay1 (F := Ideal) X' x1 x2 x3 x4 (ix3 b s c) := by
  rw [pay_apply, pay_apply, h s c, SE.gate_congr (fun s' k => h s' k)]

end Cert.ReferenceIdeal.Pay

end
-- ==== Proof.RefRows.lean ====
/-
  Each batch row of the reference kernel's stored block depends on that row of its input block only:
  the pooled mean, both dense layers and the gate of batch row `b` read the input at row `b` alone,
  and the final product multiplies by the input at the same index (the stored value read at an index: Proof/RefPay.lean).
-/
import proofs.«107113_g2000500431775840_pallasbulk_638_6_alg».proof.Proof.RefPay

noncomputable section

namespace Cert.ReferenceIdeal.Rows

open Idealize.ShloMosaic Idealize.ShloMosaic.ValueIdx Cert.ReferenceIdeal Cert.ReferenceIdeal.Gen

/-- Two input blocks that agree on batch row `b` give stored blocks that agree on batch row `b`. -/
theorem pay_rows (X X' : Vec Ideal S5x196x512 .f32) (x1 : Vec Ideal S512x64 .f32) (x2 : Vec Ideal S1x64 .f32)
    (x3 : Vec Ideal S64x512 .f32) (x4 : Vec Ideal S1x512 .f32) (b : Fin 5)
    (h : ∀ (s : Fin 196) (c : Fin 512), X (ix3 b s c) = X' (ix3 b s c)) (s : Fin 196) (c : Fin 512) :
    k0_pay1 (F := Ideal) X x1 x2 x3 x4 (ix3 b s c) = k0_pay1 (F := Ideal) X' x1 x2 x3 x4 (ix3 b s c) :=
  Cert.ReferenceIdeal.Pay.pay_rows X X' x1 x2 x3 x4 b h s c

end Cert.ReferenceIdeal.Rows

end
-- ==== Proof.RefBody.lean ====
/-
  The reference program's kernel body on clipped windows: its triple, the proof data of its one pipeline, the
  body obligation and the frame run.

  The input `x` is staged in blocks of five batch rows over 26 grid points, and 26 * 5 = 130 > 128: the last block
  overhangs the array by two batch rows. The fetch there lands the three rows inside the array in the staging
  buffer's leading rows; the other two hold values nothing names. The body reads the whole buffer and stores the
  whole gated block, but every batch row of what it stores depends on that batch row of its input alone
  (`Rows.pay_rows`), so the rows of the stored block that the write-back moves are those of the gated block of the
  fetched rows, whatever the other two rows held. The proof data fills the unnamed rows with zero.
-/
import proofs.«107113_g2000500431775840_pallasbulk_638_6_alg».proof.Proof.Gen.ReferenceIdeal.Frame
import proofs.«107113_g2000500431775840_pallasbulk_638_6_alg».proof.Proof.Gen.ReferenceIdeal.Skeleton
import proofs.«107113_g2000500431775840_pallasbulk_638_6_alg».proof.Proof.RefRows
import Idealize.ShloMosaic.Lib.Pipeline.FrameBody
import Idealize.ShloMosaic.Lib.Pipeline.FrameSuffix
import Idealize.ShloMosaic.Lib.Pipeline.Value
import Idealize.ShloMosaic.Lib.ValueIdx
import Idealize.ShloMosaic.Lib.Tactic

set_option maxRecDepth 16384

noncomputable section

namespace Cert.ReferenceIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Idealize.ShloMosaic.ValueIdx
open Cert.ReferenceIdeal.Gen

/-! ## The body's accesses -/

abbrev r0_0 : Rect S5x196x512 := Rect.unit (s := S5x196x512) ![0, 0, 0] S5x196x512.size inb_S5x196x512_S5x196x512_0_0_0
abbrev r0_1 : Rect S512x64 := Rect.unit (s := S512x64) ![0, 0] S512x64.size inb_S512x64_S512x64_0_0
abbrev r0_2 : Rect S1x64 := Rect.unit (s := S1x64) ![0, 0] S1x64.size inb_S1x64_S1x64_0_0
abbrev r0_3 : Rect S64x512 := Rect.unit (s := S64x512) ![0, 0] S64x512.size inb_S64x512_S64x512_0_0
abbrev r0_4 : Rect S1x512 := Rect.unit (s := S1x512) ![0, 0] S1x512.size inb_S1x512_S1x512_0_0

theorem hz3 : (![0, 0, 0] : Fin 3 → Nat) = fun _ => 0 := funext fun a => by fin_cases a <;> rfl
theorem hz2 : (![0, 0] : Fin 2 → Nat) = fun _ => 0 := funext fun a => by fin_cases a <;> rfl

section Kernel

variable {F : FTy → Type} [FloatOps F]

local notation "𝕄" => MT nD τ sig Unit (Elt F) ℕ (UR sig nD τ) ℕ

/-! ## What the body leaves in the output window's buffer -/

/-- The output window's staging buffer after the body, from the five buffers it loads: its one store as a piece. -/
def out0_5 (x0 : Vec F S5x196x512 .f32) (x1 : Vec F S512x64 .f32) (x2 : Vec F S1x64 .f32) (x3 : Vec F S64x512 .f32) (x4 : Vec F S1x512 .f32) : Vec F S5x196x512 .f32 :=
  View.canon [⟨r0_0, k0_pay1 (View.ld x0 r0_0) (View.ld x1 r0_1) (View.ld x2 r0_2) (View.ld x3 r0_3) (View.ld x4 r0_4)⟩]

/-- The store is through the whole buffer, so it covers it. -/
theorem cover0_5 (p0 : Vec F S5x196x512 .f32) (y : S5x196x512.Idx) :
    ∃ pc ∈ ([⟨r0_0, p0⟩] : List (View.Piece (Elt F) S5x196x512 .f32)), y ∈ pc.1.set :=
  ⟨_, List.mem_singleton_self _, View.mem_set_unit_zero hz3 inb_S5x196x512_S5x196x512_0_0_0 y⟩

/-- Each load is of a whole buffer and reads its contents, and the one store through the whole buffer leaves its
    value: the buffer ends holding the gated block of what the five loads read. -/
theorem out0_5_eq (x0 : Vec F S5x196x512 .f32) (x1 : Vec F S512x64 .f32) (x2 : Vec F S1x64 .f32) (x3 : Vec F S64x512 .f32) (x4 : Vec F S1x512 .f32) :
    out0_5 x0 x1 x2 x3 x4 = k0_pay1 x0 x1 x2 x3 x4 := by
  unfold out0_5
  rw [View.canon_unit_zero hz3, View.ld_unit_zero (S := S5x196x512) hz3, View.ld_unit_zero (S := S512x64) hz2,
    View.ld_unit_zero (S := S1x64) hz2, View.ld_unit_zero (S := S64x512) hz2, View.ld_unit_zero (S := S1x512) hz2]

/-! ## The body's triple -/

set_option maxHeartbeats 1000000 in
/-- The kernel body on whole staging memrefs, the inputs' at contents `xW` and the output's at anything, runs to the
    continuation holding the inputs' as they were and the output's at the gated block of the inputs'. -/
theorem sound_kernel (c : Dev nD) (E : Set ℕ) (i : grid0.Coords) (arg1 : Memref sig .tc .vmem S5x196x512 .f32) (harg1 : arg1.IsWhole) (arg2 : Memref sig .tc .vmem S512x64 .f32) (harg2 : arg2.IsWhole) (arg3 : Memref sig .tc .vmem S1x64 .f32) (harg3 : arg3.IsWhole) (arg4 : Memref sig .tc .vmem S64x512 .f32) (harg4 : arg4.IsWhole) (arg5 : Memref sig .tc .vmem S1x512 .f32) (harg5 : arg5.IsWhole) (arg6 : Memref sig .tc .vmem S5x196x512 .f32) (harg6 : arg6.IsWhole)
    (x0 : Vec F S5x196x512 .f32) (x1 : Vec F S512x64 .f32) (x2 : Vec F S1x64 .f32) (x3 : Vec F S64x512 .f32) (x4 : Vec F S1x512 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (k0_pay1 x0 x1 x2 x3 x4)) -∗ K ⟨⟩))
      ⊢ wp frame (wpE (defs₀ (F := F)) Variants.none c none) E (cc0__se_fused_kernel i arg1 harg1 arg2 harg2 arg3 harg3 arg4 harg4 arg5 harg5 arg6 harg6) K := by
  rw [← out0_5_eq]
  simp only [cc0__se_fused_kernel_eq_skeleton]; unfold cc0__se_fused_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover0_5 _)

end Kernel

/-! ## The pipeline's proof data -/

local notation "𝕄" => MT nD τ sig Unit (Elt Ideal) ℕ (UR sig nD τ) ℕ

variable (m : (ℓ : Loc nD τ sig) → Buf (Elt Ideal) ℓ) (ρ : Dev nD → PrngReg)

/-- The proof data of the one pipeline on core `c`: the arrays as the region finds them; after the body at point
    `t` the input `x`'s buffer at its fetched block filled out past the array's end with zero, each weight's and
    bias's buffer at its block, and the output's at the gated block of those; the class invariant; nothing owed;
    full shares. -/
def dats (_ : Fin 1) (c : Dev nD) : Dat τ (Elt Ideal) Unit ℕ (UR sig nD τ) ℕ cfg0 c where
  A w := Gen.V m c (Pipeline.arrRef spec0 w)
  after w t := match w with
    | ⟨0, _⟩ => win0_0.fill (grid0.coords t) (fun _ => (0 : EReal)) (Gen.iblk m c 0 t)
    | ⟨1, _⟩ => Gen.iblk m c 1 t
    | ⟨2, _⟩ => Gen.iblk m c 2 t
    | ⟨3, _⟩ => Gen.iblk m c 3 t
    | ⟨4, _⟩ => Gen.iblk m c 4 t
    | ⟨5, _⟩ => Gen.k0_pay1 (F := Ideal) (win0_0.fill (grid0.coords t) (fun _ => (0 : EReal)) (Gen.iblk m c 0 t))
        (Gen.iblk m c 1 t) (Gen.iblk m c 2 t) (Gen.iblk m c 3 t) (Gen.iblk m c 4 t)
  Φ _ := Pipeline.ΦA spec0 c
  q _ := fullShare
  owed _ := 0

/-- The proof data's arrays are the region-entry contents. -/
theorem A_eq (c : Dev nD) (w : Fin cfg0.W) : (dats m 0 c).A w = Gen.V m c (Pipeline.arrRef spec0 w) := by
  dsimp only [dats]

/-- What the body leaves, window by window. -/
theorem after0_0 (c : Dev nD) (t : Fin cfg0.N) :
    (dats m 0 c).after 0 t = win0_0.fill (grid0.coords t) (fun _ => (0 : EReal)) (Gen.iblk m c 0 t) := by dsimp only [dats]
theorem after0_1 (c : Dev nD) (t : Fin cfg0.N) : (dats m 0 c).after 1 t = Gen.iblk m c 1 t := by dsimp only [dats]
theorem after0_2 (c : Dev nD) (t : Fin cfg0.N) : (dats m 0 c).after 2 t = Gen.iblk m c 2 t := by dsimp only [dats]
theorem after0_3 (c : Dev nD) (t : Fin cfg0.N) : (dats m 0 c).after 3 t = Gen.iblk m c 3 t := by dsimp only [dats]
theorem after0_4 (c : Dev nD) (t : Fin cfg0.N) : (dats m 0 c).after 4 t = Gen.iblk m c 4 t := by dsimp only [dats]
theorem after0_5 (c : Dev nD) (t : Fin cfg0.N) : (dats m 0 c).after 5 t
    = Gen.k0_pay1 (F := Ideal) (win0_0.fill (grid0.coords t) (fun _ => (0 : EReal)) (Gen.iblk m c 0 t))
        (Gen.iblk m c 1 t) (Gen.iblk m c 2 t) (Gen.iblk m c 3 t) (Gen.iblk m c 4 t) := by dsimp only [dats]

/-- The input `x`'s buffer is fetched at every point: the body finds in it the array's block on the rows inside
    the array and, past them, whatever the buffer held. -/
theorem before0_0 (c : Dev nD) (t : Fin cfg0.N) (d) :
    (dats m 0 c).before 0 t d = win0_0.fill (grid0.coords t) d (Gen.iblk m c 0 t) := by
  unfold Dat.before; rw [if_pos (Gen.fetch0_0 t)]
  unfold Dat.fetched Dat.blockOf Gen.iblk; rw [A_eq]
/-- Each weight's and bias's buffer holds its block at every point, fetched there or not. -/
theorem before0_1 (c : Dev nD) (t : Fin cfg0.N) (d) : (dats m 0 c).before 1 t d = Gen.iblk m c 1 t :=
  Gen.before0_1_of m (dats m 0 c) (A_eq m c 1) (after0_1 m c) t d
theorem before0_2 (c : Dev nD) (t : Fin cfg0.N) (d) : (dats m 0 c).before 2 t d = Gen.iblk m c 2 t :=
  Gen.before0_2_of m (dats m 0 c) (A_eq m c 2) (after0_2 m c) t d
theorem before0_3 (c : Dev nD) (t : Fin cfg0.N) (d) : (dats m 0 c).before 3 t d = Gen.iblk m c 3 t :=
  Gen.before0_3_of m (dats m 0 c) (A_eq m c 3) (after0_3 m c) t d
theorem before0_4 (c : Dev nD) (t : Fin cfg0.N) (d) : (dats m 0 c).before 4 t d = Gen.iblk m c 4 t :=
  Gen.before0_4_of m (dats m 0 c) (A_eq m c 4) (after0_4 m c) t d

/-! ## The rows the transfers move -/

/-- On the part of the block a transfer moves, a filled block is the fetched part whatever was filled over. -/
theorem fill_eq_of_moved {G : Pipeline.Grid} (w : Window sig G) {α : Type} (i : G.Coords) (d d' : w.block.Idx → α)
    (g : (w.xblock i).Idx → α) {k : w.block.Idx} (h : w.moved i k = true) : w.fill i d g k = w.fill i d' g k := by
  unfold Window.fill; rw [dif_pos h, dif_pos h]

/-- The rows of the stored block that the write-back moves are the batch rows inside the array, and each depends on
    that batch row of the input block alone, which the fetch filled: they do not depend on what the input's buffer
    held past the array's end. (The input's and the output's windows have one index map and one cut.) -/
theorem cut_pay (t : Fin cfg0.N) (d d' : S5x196x512.Idx → EReal) (g : (win0_0.xblock (grid0.coords t)).Idx → EReal)
    (x1 : Vec Ideal S512x64 .f32) (x2 : Vec Ideal S1x64 .f32) (x3 : Vec Ideal S64x512 .f32) (x4 : Vec Ideal S1x512 .f32) :
    win0_5.cut (grid0.coords t) (k0_pay1 (F := Ideal) (win0_0.fill (grid0.coords t) d g) x1 x2 x3 x4)
      = win0_5.cut (grid0.coords t) (k0_pay1 (F := Ideal) (win0_0.fill (grid0.coords t) d' g) x1 x2 x3 x4) := by
  funext j
  have h0 : (j 0).val < 5 := Nat.lt_of_lt_of_le (j 0).isLt (win0_5.xsize_le (grid0.coords t) 0)
  have h1 : (j 1).val < 196 := Nat.lt_of_lt_of_le (j 1).isLt (win0_5.xsize_le (grid0.coords t) 1)
  have h2 : (j 2).val < 512 := Nat.lt_of_lt_of_le (j 2).isLt (win0_5.xsize_le (grid0.coords t) 2)
  have hj : (win0_5.xinj (grid0.coords t) j : S5x196x512.Idx)
      = ix3 (⟨(j 0).val, h0⟩ : Fin 5) (⟨(j 1).val, h1⟩ : Fin 196) (⟨(j 2).val, h2⟩ : Fin 512) := by
    funext a; match a with | ⟨0, _⟩ => rfl | ⟨1, _⟩ => rfl | ⟨2, _⟩ => rfl
  show k0_pay1 (F := Ideal) (win0_0.fill (grid0.coords t) d g) x1 x2 x3 x4 (win0_5.xinj (grid0.coords t) j)
    = k0_pay1 (F := Ideal) (win0_0.fill (grid0.coords t) d' g) x1 x2 x3 x4 (win0_5.xinj (grid0.coords t) j)
  rw [hj]
  refine Rows.pay_rows _ _ x1 x2 x3 x4 _ (fun s c' => ?_) _ _
  refine fill_eq_of_moved win0_0 (grid0.coords t) d d' g ((win0_0.moved_iff _ _).mpr fun a => ?_)
  match a with
  | ⟨0, _⟩ => exact (j 0).isLt
  | ⟨1, _⟩ => exact s.isLt
  | ⟨2, _⟩ => exact c'.isLt

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (Gen.st0_0 t) fullShare ((dats m 0 c).before 0 t d))
    ∗ (∃ d, owns (c : Thread nD τ) (Gen.st0_1 t) fullShare ((dats m 0 c).before 1 t d))
    ∗ (∃ d, owns (c : Thread nD τ) (Gen.st0_2 t) fullShare ((dats m 0 c).before 2 t d))
    ∗ (∃ d, owns (c : Thread nD τ) (Gen.st0_3 t) fullShare ((dats m 0 c).before 3 t d))
    ∗ (∃ d, owns (c : Thread nD τ) (Gen.st0_4 t) fullShare ((dats m 0 c).before 4 t d))
    ∗ (∃ d, owns (c : Thread nD τ) (Gen.st0_5 t) fullShare ((dats m 0 c).before 5 t d)))

/-- and what it returns: the input `x`'s and the output's buffers stated on the rows their transfers move only. -/
def bodyPost (c : Dev nD) (t : Fin cfg0.N) : sProp 𝕄 :=
  iprop((dats m 0 c).Φ t.succ ∗ (dats m 0 c).owesAt () t.succ
    ∗ (∃ d, owns (c : Thread nD τ) (Gen.st0_0 t) fullShare (win0_0.fill (grid0.coords t) d (win0_0.cut (grid0.coords t) ((dats m 0 c).after 0 t))))
    ∗ owns (c : Thread nD τ) (Gen.st0_1 t) fullShare ((dats m 0 c).after 1 t)
    ∗ owns (c : Thread nD τ) (Gen.st0_2 t) fullShare ((dats m 0 c).after 2 t)
    ∗ owns (c : Thread nD τ) (Gen.st0_3 t) fullShare ((dats m 0 c).after 3 t)
    ∗ owns (c : Thread nD τ) (Gen.st0_4 t) fullShare ((dats m 0 c).after 4 t)
    ∗ (∃ d, owns (c : Thread nD τ) (Gen.st0_5 t) fullShare (win0_5.fill (grid0.coords t) d (win0_5.cut (grid0.coords t) ((dats m 0 c).after 5 t)))))

/-- The body at any point: the inputs' memrefs hold their blocks — `x`'s filled out past the array's end with what
    its buffer held —, so the body's triple applies; the invariant and the core's `owes` pass through unread. The
    input's buffer is handed back as it was, the fetched rows in place; the output's holds the gated block of the
    buffers' contents, whose rows inside the array are those of the proof data's block. -/
theorem sound_body (c : Dev nD) (t : Fin cfg0.N) :
    bodyPre m c t ⊢ wp frame (wpE (defs₀ (F := Ideal)) Variants.none c none) Set.univ (Gen.bodyAt0 t) (fun _ => bodyPost m c t) := by
  unfold bodyPre bodyPost Gen.bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, Window.cut_fill]
  iintro ⟨HΦ, Ho, ⟨%d0, H0⟩, ⟨%d1, H1⟩, ⟨%d2, H2⟩, ⟨%d3, H3⟩, ⟨%d4, H4⟩, ⟨%d5, H5⟩⟩
  iapply (sound_kernel (F := Ideal) c Set.univ (grid0.coords t) _ _ _ _ _ _ _ _ _ _ _ _
    (win0_0.fill (grid0.coords t) d0 (Gen.iblk m c 0 t)) (Gen.iblk m c 1 t) (Gen.iblk m c 2 t) (Gen.iblk m c 3 t) (Gen.iblk m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexists d0; iexact H0
  isplitl [H1]; · iexact H1
  isplitl [H2]; · iexact H2
  isplitl [H3]; · iexact H3
  isplitl [H4]; · iexact H4
  iexists (k0_pay1 (F := Ideal) (win0_0.fill (grid0.coords t) d0 (Gen.iblk m c 0 t)) (Gen.iblk m c 1 t) (Gen.iblk m c 2 t) (Gen.iblk m c 3 t) (Gen.iblk m c 4 t))
  have heq : win0_5.fill (α := EReal) (grid0.coords t) (k0_pay1 (F := Ideal) (win0_0.fill (grid0.coords t) d0 (Gen.iblk m c 0 t)) (Gen.iblk m c 1 t) (Gen.iblk m c 2 t) (Gen.iblk m c 3 t) (Gen.iblk m c 4 t))
      (win0_5.cut (α := EReal) (grid0.coords t) (k0_pay1 (F := Ideal) (win0_0.fill (grid0.coords t) (fun _ => (0 : EReal)) (Gen.iblk m c 0 t)) (Gen.iblk m c 1 t) (Gen.iblk m c 2 t) (Gen.iblk m c 3 t) (Gen.iblk m c 4 t)))
      = (k0_pay1 (F := Ideal) (win0_0.fill (grid0.coords t) d0 (Gen.iblk m c 0 t)) (Gen.iblk m c 1 t) (Gen.iblk m c 2 t) (Gen.iblk m c 3 t) (Gen.iblk m c 4 t)) :=
    win0_5.fill_congr_cut (α := EReal) (grid0.coords t) (cut_pay t d0 (fun _ => (0 : EReal)) (Gen.iblk m c 0 t) (Gen.iblk m c 1 t) (Gen.iblk m c 2 t) (Gen.iblk m c 3 t) (Gen.iblk m c 4 t))
  change _ ⊢ owns (Val := Elt Ideal) (c : Thread nD τ) (Gen.st0_5 t) fullShare (win0_5.fill (α := EReal) (grid0.coords t) (k0_pay1 (F := Ideal) (win0_0.fill (grid0.coords t) d0 (Gen.iblk m c 0 t)) (Gen.iblk m c 1 t) (Gen.iblk m c 2 t) (Gen.iblk m c 3 t) (Gen.iblk m c 4 t))
      (win0_5.cut (α := EReal) (grid0.coords t) (k0_pay1 (F := Ideal) (win0_0.fill (grid0.coords t) (fun _ => (0 : EReal)) (Gen.iblk m c 0 t)) (Gen.iblk m c 1 t) (Gen.iblk m c 2 t) (Gen.iblk m c 3 t) (Gen.iblk m c 4 t))))
  rw [heq]

/-- The library's body obligation, at every point: no point is idle, and of the six windows the input `x`'s and the
    output's are the ones stated on their moved rows only. -/
theorem body_obligation (c : Dev nD) : BodyObligationLoose (dats m 0 c) (defs₀ (F := Ideal)) Variants.none () Set.univ := fun t => by
  rw [Gen.bigSep_W0, Gen.bigSep_W0]
  exact sound_body m c t

/-! ## The run and the frame -/

set_option backward.isDefEq.respectTransparency.types false in
/-- At the compiled mesh, for any values, from any memory with zero counters: every weakly fair execution of @main on the
    TensorCores terminates, and every final state has every array of the pipeline at what the library computes from the
    proof data and every other unscoped buffer as the lines after the region leave it. -/
theorem run_main : θ_run defs (onTc (τ := τ) (main (F := Ideal))) (s₀ m ρ) (Pipeline.FramePost cfgs (dats m) 0 (Pipeline.afterTail₀ cfgs (dats m) 0 (Gen.V0 m) [Gen.hostOps1])) :=
  Pipeline.θ_run_frame_around cfgs (dats m) (0 : Fin 1) Gen.launch0 defs₀ Variants.none m ρ main
    (hbody := fun c => body_obligation m c) (hshare := fun c => (dats m 0 c).share_full fun _ => rfl)
    (howed := fun _ _ => rfl) (V₀ := Gen.V0 m) (opss := [Gen.hostOps1]) (hsub := Gen.sfx_sub) (hfresh := Gen.sfx_fresh) (hkeep := Gen.sfx_keeps)
    (hmain := Gen.hmain m Variants.none) (hA := A_eq m) (hΦ := fun _ _ => rfl)

/-- The frame of the reference program at the ideal instance: under any values every weakly fair execution of @main
    terminates without a fault and the five argument arrays end as launched. -/
theorem frame : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Gen.frame_of m ρ (dats m) (A_eq m) (run_main m ρ)

end Cert.ReferenceIdeal.Body

end
-- ==== Proof.RefHost.lean ====
/-
  The host operations around the reference's region, read at an index.

  Before the region the input `x[b, c, h, w]` is re-laid batch-major, [128 batch rows, 196 positions, 512 channels]: the array the region reads holds, at
  (batch row `b`, position `s`, channel `c`), the input at batch row `b`, channel `c`, row `s / 14`, column `s % 14` (a transpose is a
  permutation of the coordinates, a reshape keeps the row-major position, and `s = 14 · (s / 14) + s % 14`).
  After the region the result is laid back: the program's result at `[b, c, h, w]` is the region's output array at
  position `14 · h + w`, batch row `b`, channel `c`.
-/
import proofs.«107113_g2000500431775840_pallasbulk_638_6_alg».proof.Proof.Gen.ReferenceIdeal.Frame
import proofs.«107113_g2000500431775840_pallasbulk_638_6_alg».proof.Proof.Spec
import Idealize.ShloMosaic.Lib.Pipeline.Value
import Idealize.ShloMosaic.Lib.StableHlo.Run
import Idealize.ShloMosaic.Lib.ValueIdx

noncomputable section

namespace Cert.ReferenceIdeal.Host

open Idealize.ShloMosaic Idealize.ShloMosaic.TcCoe Idealize.ShloMosaic.ValueIdx Idealize.SL.Sem
open Cert.ReferenceIdeal Cert.ReferenceIdeal.Gen
open Idealize.ShloMosaic.Pipeline (Dat)

variable (m : (ℓ : Loc nD τ sig) → Buf (Elt Ideal) ℓ)

/-- THE REGION'S INPUT ARRAY at (batch row `b`, position `s`, channel `c`) is the input at `[b, c, s / 14, s % 14]`. -/
theorem V1_apply (c : Dev nD) (s : Fin 196) (B : Fin 128) (k : Fin 512) :
    V m c main_call0_v1 (ix3 B s k) = m ((c : Thread nD τ).loc main_arg0) (ix4 B k (SE.rowOf s) (SE.colOf s)) := by
  have e : (V m c main_call0_v1 : S128x196x512.Idx → Elt Ideal .f32) =
      shapeCast S128x196x512 (transpose S128x14x14x512 [0, 2, 3, 1] (m ((c : Thread nD τ).loc main_arg0)) transposes_S128x512x14x14_S128x14x14x512_0_2_3_1) shapeCasts_S128x14x14x512_S128x196x512 := by
    show StableHlo.after hostOps0 (fun b => m (c, b)) (Proc.devRef .tc main_call0_v1) = _
    after_results
    rfl
  rw [e, shapeCast_apply _ _ (ix3 B s k) (ix4 B (SE.rowOf s) (SE.colOf s) k) (by
    rw [Shape.rowMajor_val_four, Shape.rowMajor_val_three]
    show ((B.val * 14 + (s.val / 14)) * 14 + (s.val % 14)) * 512 + k.val = (B.val * 196 + s.val) * 512 + k.val
    have := Nat.div_add_mod s.val 14
    omega)]
  exact transpose_apply _ _ _ (ix4 B (SE.rowOf s) (SE.colOf s) k) (ix4 B k (SE.rowOf s) (SE.colOf s)) (fun a => by
    match a with
    | ⟨0, _⟩ => rfl
    | ⟨1, _⟩ => rfl
    | ⟨2, _⟩ => rfl
    | ⟨3, _⟩ => rfl)

/-- THE PROGRAM'S RESULT at `[b, c, h, w]`, for any proof data of the region, is the region's output array after the run at
    position `14 · h + w`, batch row `b`, channel `c`. -/
theorem out_apply (dats : (p : Fin 1) → (c : Dev nD) → Dat τ (Elt Ideal) Unit ℕ (UR sig nD τ) ℕ (cfgs p) c) (c : Dev nD)
    (b : Fin 128) (k : Fin 512) (h w : Fin 14) :
    Pipeline.afterTail₀ cfgs dats 0 (V0 m) [hostOps1] c main_v0 (ix4 b k h w)
      = (dats 0 c).arrAt 5 cfg0.N (ix3 b (SE.posOf h w) k) := by
  have e : (Pipeline.afterTail₀ cfgs dats 0 (V0 m) [hostOps1] c main_v0 : S128x512x14x14.Idx → Elt Ideal .f32)
      = transpose S128x512x14x14 [0, 3, 1, 2] (shapeCast S128x14x14x512 ((dats 0 c).arrAt 5 cfg0.N) shapeCasts_S128x196x512_S128x14x14x512) transposes_S128x14x14x512_S128x512x14x14_0_3_1_2 := by
    unfold Pipeline.afterTail₀
    show StableHlo.after hostOps1 _ (Proc.devRef .tc main_v0) = _
    after_results
    have hw := Pipeline.withArrays_arr spec0 launch0.win.arr_inj c (V0 m c) (fun w => (dats 0 c).arrAt w cfg0.N) 5
    show transpose S128x512x14x14 [0, 3, 1, 2] (shapeCast S128x14x14x512 (Pipeline.withArrays spec0 c (V0 m c) (fun w => (dats 0 c).arrAt w cfg0.N)
      (Proc.devRef .tc (Pipeline.arrRef spec0 5))) shapeCasts_S128x196x512_S128x14x14x512) transposes_S128x14x14x512_S128x512x14x14_0_3_1_2 = _
    rw [hw]
  rw [e, transpose_apply _ _ _ (ix4 b k h w) (ix4 b h w k) (fun a => by
    match a with
    | ⟨0, _⟩ => rfl
    | ⟨1, _⟩ => rfl
    | ⟨2, _⟩ => rfl
    | ⟨3, _⟩ => rfl)]
  exact shapeCast_apply _ _ (ix4 b h w k) (ix3 b (SE.posOf h w) k) (by
    rw [Shape.rowMajor_val_four, Shape.rowMajor_val_three]
    show (b.val * 196 + (h.val * 14 + w.val)) * 512 + k.val = ((b.val * 14 + h.val) * 14 + w.val) * 512 + k.val
    omega)

end Cert.ReferenceIdeal.Host

end
-- ==== Proof.RefValue.lean ====
/-
  The reference's run, read as a value: after the run its result is `SE.result` of the argument arrays.

  The region's output array is batch-major, [128, 196, 512], cut along the batch axis into 26 blocks of 5 batch rows; the
  last block starts at batch row 125 and overhangs the array by two rows, so its transfers move its first three rows only.
  What point `t` writes back is the part of the stored block inside the array. An entry of that part lies at a batch row
  `b` of the block with `5 t + b < 128`, where the fetched input block holds the input array (whatever the rows past the
  array's end hold), and the stored value at batch row `b` reads the input block at row `b` only: so the part written back
  is a block of ONE function of the whole input array (`arrFn`). The 26 parts cover the array, so the array ends holding
  `arrFn`; with the re-layouts before and after the region that is `SE.result`.
-/
import proofs.«107113_g2000500431775840_pallasbulk_638_6_alg».proof.Proof.Gen.ReferenceIdeal.Frame
import proofs.«107113_g2000500431775840_pallasbulk_638_6_alg».proof.Proof.RefBody
import proofs.«107113_g2000500431775840_pallasbulk_638_6_alg».proof.Proof.RefPay
import proofs.«107113_g2000500431775840_pallasbulk_638_6_alg».proof.Proof.RefHost
import Idealize.ShloMosaic.Lib.Pipeline.Value
import Idealize.ShloMosaic.Lib.ValueIdx

noncomputable section

namespace Cert.ReferenceIdeal.Val

open Idealize.ShloMosaic Idealize.ShloMosaic.TcCoe Idealize.ShloMosaic.ValueIdx Idealize.SL.Sem
open Cert.ReferenceIdeal Cert.ReferenceIdeal.Gen
open Idealize.ShloMosaic.Pipeline (Dat)

variable (m : (ℓ : Loc nD τ sig) → Buf (Elt Ideal) ℓ) (ρ : Dev nD → PrngReg)

/-- The region's output array as one function of its input array `V1` (batch-major) and the weights: at
    (batch row, position, channel) the gate of that batch row at that channel, times `V1` there. -/
def arrFn (V1 : S128x196x512.Idx → EReal) (w1 : S512x64.Idx → EReal) (b1 : S1x64.Idx → EReal) (w2 : S64x512.Idx → EReal)
    (b2 : S1x512.Idx → EReal) : S128x196x512.Idx → EReal :=
  fun i => SE.gate (fun s k => V1 (ix3 (i 0 : Fin 128) s k)) w1 b1 w2 b2 (i 2 : Fin 512) * V1 i

theorem arrFn_apply (V1 : S128x196x512.Idx → EReal) (w1 : S512x64.Idx → EReal) (b1 : S1x64.Idx → EReal) (w2 : S64x512.Idx → EReal)
    (b2 : S1x512.Idx → EReal) (B : Fin 128) (s : Fin 196) (c : Fin 512) :
    arrFn V1 w1 b1 w2 b2 (ix3 B s c) = SE.gate (fun s' k => V1 (ix3 B s' k)) w1 b1 w2 b2 c * V1 (ix3 B s c) := rfl

/-- The printed index maps over the grid: the input's and the output's blocks move along the batch axis with the point,
    the weights' blocks are the whole arrays. -/
theorem idx_facts : ∀ t : Fin cfg0.N,
    win0_0.index t (0 : Fin 3) = t.val ∧ win0_0.index t (1 : Fin 3) = 0 ∧ win0_0.index t (2 : Fin 3) = 0
    ∧ win0_5.index t (0 : Fin 3) = t.val ∧ win0_5.index t (1 : Fin 3) = 0 ∧ win0_5.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0 :=
  (by decide +kernel : ∀ t : Fin grid0.N, _)

/-- How many batch rows the transfers at point `t` move: five, or as many as lie inside the array; every position and channel. -/
theorem clip_facts : ∀ t : Fin cfg0.N,
    win0_0.xsize (grid0.coords t) (0 : Fin 3) ≤ 5 ∧ t.val * 5 + win0_0.xsize (grid0.coords t) (0 : Fin 3) ≤ 128
    ∧ (5 ≤ win0_0.xsize (grid0.coords t) (0 : Fin 3) ∨ 128 ≤ t.val * 5 + win0_0.xsize (grid0.coords t) (0 : Fin 3))
    ∧ win0_0.xsize (grid0.coords t) (1 : Fin 3) = 196 ∧ win0_0.xsize (grid0.coords t) (2 : Fin 3) = 512
    ∧ win0_5.xsize (grid0.coords t) (0 : Fin 3) ≤ 5 ∧ t.val * 5 + win0_5.xsize (grid0.coords t) (0 : Fin 3) ≤ 128
    ∧ (5 ≤ win0_5.xsize (grid0.coords t) (0 : Fin 3) ∨ 128 ≤ t.val * 5 + win0_5.xsize (grid0.coords t) (0 : Fin 3))
    ∧ win0_5.xsize (grid0.coords t) (1 : Fin 3) = 196 ∧ win0_5.xsize (grid0.coords t) (2 : Fin 3) = 512 :=
  (by decide +kernel : ∀ t : Fin grid0.N, _)

/-- The fetched input block at point `t`, whatever filled it out past the array's end, holds at an entry (b, s, k) whose batch
    row `5 t + b` is inside the array the region's input array there. -/
theorem fill_read0 (c : Dev nD) (t : Fin cfg0.N) (d : S5x196x512.Idx → Elt Ideal .f32) (b : Fin 5) (s : Fin 196) (k : Fin 512)
    (B : Fin 128) (hB : B.val = t.val * 5 + b.val) :
    win0_0.fill (grid0.coords t) d (iblk m c 0 t) (ix3 b s k) = V m c main_call0_v1 (ix3 B s k) := by
  obtain ⟨x0, x1, x2, x3, x4, -⟩ := clip_facts t
  obtain ⟨e0, e1, e2, -⟩ := idx_facts t
  have hB' := B.isLt
  have hs := s.isLt
  have hk := k.isLt
  have hm : win0_0.moved (grid0.coords t) (ix3 b s k) = true := (win0_0.moved_iff _ _).mpr (fun a => by
    match a with
    | ⟨0, _⟩ => show b.val < win0_0.xsize (grid0.coords t) (0 : Fin 3); omega
    | ⟨1, _⟩ => show s.val < win0_0.xsize (grid0.coords t) (1 : Fin 3); omega
    | ⟨2, _⟩ => show k.val < win0_0.xsize (grid0.coords t) (2 : Fin 3); omega)
  unfold Pipeline.Window.fill
  rw [dif_pos hm]
  show V m c main_call0_v1 (((cfg0.win 0).blk t).view.emb _) = V m c main_call0_v1 (ix3 B s k)
  refine congrArg _ (funext fun a => Fin.ext ?_)
  match a with
  | ⟨0, _⟩ => show win0_0.index t (0 : Fin 3) * 5 + 1 * b.val = B.val; omega
  | ⟨1, _⟩ => show win0_0.index t (1 : Fin 3) * 196 + 1 * s.val = s.val; omega
  | ⟨2, _⟩ => show win0_0.index t (2 : Fin 3) * 512 + 1 * k.val = k.val; omega

/-- Each weight's block is its whole array. -/
theorem read1 (c : Dev nD) (t : Fin cfg0.N) : (iblk m c 1 t : S512x64.Idx → Elt Ideal .f32) = V m c main_arg1 := by
  funext y
  show V m c main_arg1 (((cfg0.win 1).blk t).view.emb y) = V m c main_arg1 y
  refine congrArg _ (funext fun a => Fin.ext ?_)
  obtain ⟨-, -, -, -, -, -, e0, e1, -⟩ := idx_facts t
  match a with
  | ⟨0, _⟩ => show win0_1.index t (0 : Fin 2) * 512 + 1 * (y 0).val = (y 0).val; omega
  | ⟨1, _⟩ => show win0_1.index t (1 : Fin 2) * 64 + 1 * (y 1).val = (y 1).val; omega
theorem read2 (c : Dev nD) (t : Fin cfg0.N) : (iblk m c 2 t : S1x64.Idx → Elt Ideal .f32) = V m c main_arg2 := by
  funext y
  show V m c main_arg2 (((cfg0.win 2).blk t).view.emb y) = V m c main_arg2 y
  refine congrArg _ (funext fun a => Fin.ext ?_)
  obtain ⟨-, -, -, -, -, -, -, -, e0, e1, -⟩ := idx_facts t
  match a with
  | ⟨0, _⟩ => show win0_2.index t (0 : Fin 2) * 1 + 1 * (y 0).val = (y 0).val; omega
  | ⟨1, _⟩ => show win0_2.index t (1 : Fin 2) * 64 + 1 * (y 1).val = (y 1).val; omega
theorem read3 (c : Dev nD) (t : Fin cfg0.N) : (iblk m c 3 t : S64x512.Idx → Elt Ideal .f32) = V m c main_arg3 := by
  funext y
  show V m c main_arg3 (((cfg0.win 3).blk t).view.emb y) = V m c main_arg3 y
  refine congrArg _ (funext fun a => Fin.ext ?_)
  obtain ⟨-, -, -, -, -, -, -, -, -, -, e0, e1, -⟩ := idx_facts t
  match a with
  | ⟨0, _⟩ => show win0_3.index t (0 : Fin 2) * 64 + 1 * (y 0).val = (y 0).val; omega
  | ⟨1, _⟩ => show win0_3.index t (1 : Fin 2) * 512 + 1 * (y 1).val = (y 1).val; omega
theorem read4 (c : Dev nD) (t : Fin cfg0.N) : (iblk m c 4 t : S1x512.Idx → Elt Ideal .f32) = V m c main_arg4 := by
  funext y
  show V m c main_arg4 (((cfg0.win 4).blk t).view.emb y) = V m c main_arg4 y
  refine congrArg _ (funext fun a => Fin.ext ?_)
  obtain ⟨-, -, -, -, -, -, -, -, -, -, -, -, e0, e1⟩ := idx_facts t
  match a with
  | ⟨0, _⟩ => show win0_4.index t (0 : Fin 2) * 1 + 1 * (y 0).val = (y 0).val; omega
  | ⟨1, _⟩ => show win0_4.index t (1 : Fin 2) * 512 + 1 * (y 1).val = (y 1).val; omega

/-- WHAT POINT `t` WRITES BACK is block `t` (its part inside the array) of `arrFn` of the arrays as the region finds them. -/
theorem flushed_eq (c : Dev nD) (t : Fin cfg0.N) :
    (Body.dats m 0 c).flushed 5 t = ((cfg0.win 5).blk t).view.read (Elt Ideal)
      (arrFn (V m c main_call0_v1) (V m c main_arg1) (V m c main_arg2) (V m c main_arg3) (V m c main_arg4)) := by
  show (cfg0.win 5).cut (grid0.coords t) ((Body.dats m 0 c).after 5 t) = _
  rw [Body.after0_5]
  funext j
  obtain ⟨-, -, -, -, -, y0, y1, -, y3, y4⟩ := clip_facts t
  obtain ⟨-, -, -, e3, e4, e5, -⟩ := idx_facts t
  have hj0 : (j 0).val < win0_5.xsize (grid0.coords t) (0 : Fin 3) := (j 0).isLt
  have hj1 : (j 1).val < win0_5.xsize (grid0.coords t) (1 : Fin 3) := (j 1).isLt
  have hj2 : (j 2).val < win0_5.xsize (grid0.coords t) (2 : Fin 3) := (j 2).isLt
  have hb : (j 0).val < 5 := by omega
  have hs : (j 1).val < 196 := by omega
  have hk : (j 2).val < 512 := by omega
  have hB : t.val * 5 + (j 0).val < 128 := by omega
  have ex : (cfg0.win 5).xinj (grid0.coords t) j = ix3 (⟨(j 0).val, hb⟩ : Fin 5) (⟨(j 1).val, hs⟩ : Fin 196) (⟨(j 2).val, hk⟩ : Fin 512) :=
    funext fun a => Fin.ext (by
      match a with
      | ⟨0, _⟩ => rfl
      | ⟨1, _⟩ => rfl
      | ⟨2, _⟩ => rfl)
  have e5' : ((cfg0.win 5).blk t).view.emb j
      = ix3 (⟨t.val * 5 + (j 0).val, hB⟩ : Fin 128) (⟨(j 1).val, hs⟩ : Fin 196) (⟨(j 2).val, hk⟩ : Fin 512) :=
    funext fun a => Fin.ext (by
      match a with
      | ⟨0, _⟩ => show win0_5.index t (0 : Fin 3) * 5 + 1 * (j 0).val = t.val * 5 + (j 0).val; omega
      | ⟨1, _⟩ => show win0_5.index t (1 : Fin 3) * 196 + 1 * (j 1).val = (j 1).val; omega
      | ⟨2, _⟩ => show win0_5.index t (2 : Fin 3) * 512 + 1 * (j 2).val = (j 2).val; omega)
  show k0_pay1 (F := Ideal) (win0_0.fill (grid0.coords t) (fun _ => (0 : EReal)) (iblk m c 0 t)) (iblk m c 1 t) (iblk m c 2 t)
        (iblk m c 3 t) (iblk m c 4 t) ((cfg0.win 5).xinj (grid0.coords t) j)
    = arrFn (V m c main_call0_v1) (V m c main_arg1) (V m c main_arg2) (V m c main_arg3) (V m c main_arg4)
        (((cfg0.win 5).blk t).view.emb j)
  rw [ex, e5', arrFn_apply]
  refine (Pay.pay_apply (win0_0.fill (grid0.coords t) (fun _ => (0 : EReal)) (iblk m c 0 t)) (iblk m c 1 t) (iblk m c 2 t)
    (iblk m c 3 t) (iblk m c 4 t) ⟨(j 1).val, hs⟩ ⟨(j 0).val, hb⟩ ⟨(j 2).val, hk⟩).trans ?_
  rw [read1, read2, read3, read4,
    fill_read0 m c t _ ⟨(j 0).val, hb⟩ ⟨(j 1).val, hs⟩ ⟨(j 2).val, hk⟩ ⟨t.val * 5 + (j 0).val, hB⟩ rfl]
  exact congrArg (· * _) (SE.gate_congr
    (fun s' k' => fill_read0 m c t _ ⟨(j 0).val, hb⟩ s' k' ⟨t.val * 5 + (j 0).val, hB⟩ rfl) _ _ _ _ _)

/-- An index of the array is in point `t`'s block iff each coordinate is among those the block's transfer moves on its axis. -/
theorem mem_blk (t : Fin cfg0.N) (i : S128x196x512.Idx) :
    i ∈ ((cfg0.win 5).blk t).view.set ↔ ∀ a : Fin 3, win0_5.index t a * S5x196x512.size a ≤ (i a).val
      ∧ (i a).val < win0_5.index t a * S5x196x512.size a + win0_5.xsize (grid0.coords t) a := by
  show i ∈ ((View.whole main_call0_v2).slice (win0_5.rect t)).set ↔ _
  rw [View.set_slice_whole, Rect.mem_set_unit]
  exact Iff.rfl

/-- Every index of the output array is in the block of the point that holds its batch row, `b / 5`. -/
theorem cover (i : S128x196x512.Idx) : ∃ t : Fin cfg0.N, (cfg0.win 5).flush t = true ∧ i ∈ ((cfg0.win 5).blk t).view.set := by
  have h0 : (i 0).val < 128 := (i 0).isLt
  have h1 : (i 1).val < 196 := (i 1).isLt
  have h2 : (i 2).val < 512 := (i 2).isLt
  have hN : grid0.N = 26 := N_0
  refine ⟨⟨(i 0).val / 5, by show (i 0).val / 5 < grid0.N; omega⟩, flush0_5 _, ?_⟩
  rw [mem_blk]
  obtain ⟨-, -, -, e3, e4, e5, -⟩ := idx_facts ⟨(i 0).val / 5, by show (i 0).val / 5 < grid0.N; omega⟩
  obtain ⟨-, -, -, -, -, y0, y1, y2, y3, y4⟩ := clip_facts ⟨(i 0).val / 5, by show (i 0).val / 5 < grid0.N; omega⟩
  intro a
  match a with
  | ⟨0, _⟩ =>
    show win0_5.index _ (0 : Fin 3) * 5 ≤ (i 0).val ∧ (i 0).val < win0_5.index _ (0 : Fin 3) * 5 + win0_5.xsize _ (0 : Fin 3)
    rw [e3]
    have y1' : (i 0).val / 5 * 5 + win0_5.xsize (grid0.coords ⟨(i 0).val / 5, by show (i 0).val / 5 < grid0.N; omega⟩) (0 : Fin 3) ≤ 128 := y1
    have y2' : 5 ≤ win0_5.xsize (grid0.coords ⟨(i 0).val / 5, by show (i 0).val / 5 < grid0.N; omega⟩) (0 : Fin 3)
      ∨ 128 ≤ (i 0).val / 5 * 5 + win0_5.xsize (grid0.coords ⟨(i 0).val / 5, by show (i 0).val / 5 < grid0.N; omega⟩) (0 : Fin 3) := y2
    show (i 0).val / 5 * 5 ≤ (i 0).val ∧ (i 0).val < (i 0).val / 5 * 5 + win0_5.xsize _ (0 : Fin 3)
    omega
  | ⟨1, _⟩ =>
    show win0_5.index _ (1 : Fin 3) * 196 ≤ (i 1).val ∧ (i 1).val < win0_5.index _ (1 : Fin 3) * 196 + win0_5.xsize _ (1 : Fin 3)
    rw [e4, y3]; omega
  | ⟨2, _⟩ =>
    show win0_5.index _ (2 : Fin 3) * 512 ≤ (i 2).val ∧ (i 2).val < win0_5.index _ (2 : Fin 3) * 512 + win0_5.xsize _ (2 : Fin 3)
    rw [e5, y4]; omega

/-- THE OUTPUT ARRAY after the run. -/
theorem final (c : Dev nD) : (Body.dats m 0 c).arrAt 5 cfg0.N
    = arrFn (V m c main_call0_v1) (V m c main_arg1) (V m c main_arg2) (V m c main_arg3) (V m c main_arg4) :=
  (Body.dats m 0 c).arrAt_eq_of_cover 5 _ (fun t _ => flushed_eq m c t) cover

/-- THE PROGRAM'S RESULT after the run is `SE.result` of the argument arrays. -/
theorem out_eq (c : Dev nD) :
    (Pipeline.afterTail₀ cfgs (Body.dats m) 0 (V0 m) [hostOps1] c main_v0 : S128x512x14x14.Idx → Elt Ideal .f32)
      = SE.result (m ((c : Thread nD τ).loc main_arg0)) (m ((c : Thread nD τ).loc main_arg1)) (m ((c : Thread nD τ).loc main_arg2))
          (m ((c : Thread nD τ).loc main_arg3)) (m ((c : Thread nD τ).loc main_arg4)) := by
  funext i
  obtain ⟨b, k, h, w, rfl⟩ : ∃ (b : Fin 128) (k : Fin 512) (h w : Fin 14), i = ix4 b k h w := ⟨i 0, i 1, i 2, i 3, eq_ix4 i⟩
  rw [Host.out_apply m (Body.dats m) c b k h w, final, arrFn_apply, SE.result_apply]
  unfold SE.resAt
  rw [Host.V1_apply, SE.rowOf_posOf, SE.colOf_posOf, V_main_arg1, V_main_arg2, V_main_arg3, V_main_arg4,
    SE.gate_congr (fun s' k' => Host.V1_apply m c s' b k')]

/-- The reference's run with its result named: every weakly fair execution terminates with the result at `SE.result` of the
    argument arrays and the arguments unchanged. -/
theorem run : θ_run defs (onTc (τ := τ) (main (F := Ideal))) ⟨m, fun _ => 0, ρ⟩ fun r => ∀ c : Dev nD,
      r.2.mem ((c.tc : Thread nD τ).loc main_v0) = SE.result (m ((c : Thread nD τ).loc main_arg0)) (m ((c : Thread nD τ).loc main_arg1))
          (m ((c : Thread nD τ).loc main_arg2)) (m ((c : Thread nD τ).loc main_arg3)) (m ((c : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c =>
      ⟨(((h c).2 main_v0 (Pipeline.mem_restRefs_of main_v0 (by decide) (by decide))).trans (out_eq m c)),
        ((h c).2 main_arg0 (Pipeline.mem_restRefs_of main_arg0 (by decide) (by decide))).trans (W_main_arg0 m (Body.dats m) c),
        ((h c).1 1).trans (((Body.dats m 0 c).arrAt_in 1 rfl _).trans ((Body.A_eq m c 1).trans (V_main_arg1 m c))),
        ((h c).1 2).trans (((Body.dats m 0 c).arrAt_in 2 rfl _).trans ((Body.A_eq m c 2).trans (V_main_arg2 m c))),
        ((h c).1 3).trans (((Body.dats m 0 c).arrAt_in 3 rfl _).trans ((Body.A_eq m c 3).trans (V_main_arg3 m c))),
        ((h c).1 4).trans (((Body.dats m 0 c).arrAt_in 4 rfl _).trans ((Body.A_eq m c 4).trans (V_main_arg4 m c)))⟩)
    (Body.run_main m ρ)

end Cert.ReferenceIdeal.Val

end
-- ==== Proof.lean ====
/-
  A squeeze-and-excite block on `x : f32[128, 512, 14, 14]`: per batch row the mean over the 196 spatial positions, two dense
  layers (512 → 64 with a rectifier, 64 → 512 with the logistic function), and the resulting per-channel gate times `x`.
  Both programs run that computation in one kernel launch and differ in layout only: the kernel under proof lays the input
  out position-major, [196, 128, 512], in four blocks of 32 batch rows; the reference batch-major, [128, 196, 512], in 26
  blocks of 5 batch rows, the last of which overhangs the array. On the extended reals the two bodies are the same
  arithmetic, entry for entry — the same literal for 1/196, sums over the same index sets, the same matrix products — so no
  law of arithmetic is needed and the finiteness of the inputs is never used: each program's result is `SE.result`
  (Proof/Spec.lean) of its argument arrays.

  * the two frames of the kernel under proof are its generated frame runs;
  * the reference's frame is its run on the clipped windows (Proof/RefBody.lean): a batch row of the stored block depends
    on that batch row of the fetched block only (Proof/RefPay.lean), so the rows inside the array do not see what the
    rows past the array's end hold;
  * `preserves` has no conjunct: the idealization rewrote nothing;
  * `algebraic`: both runs end with the result at `SE.result` of the arguments (Proof/KernelValue.lean,
    Proof/RefValue.lean, over the stored value read at an index, Proof/KernelPay.lean, Proof/RefPay.lean, and the
    re-layouts around the regions, Proof/KernelHost.lean, Proof/RefHost.lean), and the arguments agree.
-/
import proofs.«107113_g2000500431775840_pallasbulk_638_6_alg».proof.Defs
import proofs.«107113_g2000500431775840_pallasbulk_638_6_alg».proof.Proof.Gen.Kernel
import proofs.«107113_g2000500431775840_pallasbulk_638_6_alg».proof.Proof.Gen.Kernel.Skeleton
import proofs.«107113_g2000500431775840_pallasbulk_638_6_alg».proof.Proof.Gen.Kernel.Launch
import proofs.«107113_g2000500431775840_pallasbulk_638_6_alg».proof.Proof.Gen.Kernel.Points
import proofs.«107113_g2000500431775840_pallasbulk_638_6_alg».proof.Proof.Gen.Kernel.Frame
import proofs.«107113_g2000500431775840_pallasbulk_638_6_alg».proof.Proof.Gen.KernelIdeal
import proofs.«107113_g2000500431775840_pallasbulk_638_6_alg».proof.Proof.Gen.KernelIdeal.Skeleton
import proofs.«107113_g2000500431775840_pallasbulk_638_6_alg».proof.Proof.Gen.KernelIdeal.Launch
import proofs.«107113_g2000500431775840_pallasbulk_638_6_alg».proof.Proof.Gen.KernelIdeal.Points
import proofs.«107113_g2000500431775840_pallasbulk_638_6_alg».proof.Proof.Gen.KernelIdeal.Frame
import proofs.«107113_g2000500431775840_pallasbulk_638_6_alg».proof.Proof.Gen.ReferenceIdeal
import proofs.«107113_g2000500431775840_pallasbulk_638_6_alg».proof.Proof.Gen.ReferenceIdeal.Skeleton
import proofs.«107113_g2000500431775840_pallasbulk_638_6_alg».proof.Proof.Gen.ReferenceIdeal.Launch
import proofs.«107113_g2000500431775840_pallasbulk_638_6_alg».proof.Proof.Gen.ReferenceIdeal.Points
import proofs.«107113_g2000500431775840_pallasbulk_638_6_alg».proof.Proof.Gen.ReferenceIdeal.Frame
import proofs.«107113_g2000500431775840_pallasbulk_638_6_alg».proof.Proof.Gen.Pre_finite_inputs
import proofs.«107113_g2000500431775840_pallasbulk_638_6_alg».proof.Proof.KernelValue
import proofs.«107113_g2000500431775840_pallasbulk_638_6_alg».proof.Proof.RefBody
import proofs.«107113_g2000500431775840_pallasbulk_638_6_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ => Cert.ReferenceIdeal.Body.frame m ρ

theorem preserves : Cert.preserves_Kernel_KernelIdeal := trivial

/-- Both runs end with the result at `SE.result` of their argument arrays, and the argument arrays agree. -/
theorem algebraic : Cert.algebraic_KernelIdeal_ReferenceIdeal := by
  intro m ρ m' ρ' _ hagree
  refine ⟨_, Cert.KernelIdeal.Val.run m ρ, ?_⟩
  refine (θ_run Cert.ReferenceIdeal.defs _ _).mono (fun r h c => ⟨(h c).1.trans ?_, (h c).2⟩)
    (Cert.ReferenceIdeal.Val.run m' ρ')
  rw [(hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
